-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel

variable [Facts]

def fn_part1 {F : FTy → Type} [FloatOps F] (main_arg4 : FVec F S16384x256 .f32) (main_arg5 : FVec F S16384x256 .f32) (main_v13 : IVec S_ 1) (main_v16 : IVec S16384x256 1) : IVec S_ 1 :=
  let main_c_5 : IVec S_ 1 := constantI S_ 1 1#1
  let main_v17 : IVec S_ 1 := (fun x v => Host.reduce IntOp.andi x v reducesTo_S16384x256_S_d0_1 h_S_) main_v16 main_c_5
  let main_v18 : IVec S_ 1 := andi main_v13 main_v17
  let main_v19 : FVec F S16384x256 .f32 := Host.absf main_arg4
  let main_cst_6 : FVec F S_ .f32 := constant S_ .f32 0x7F800000#32
  let main_v20 : FVec F S16384x256 .f32 := broadcastInDim S16384x256 ![] bcast_S_S16384x256 main_cst_6
  let main_v21 : IVec S16384x256 1 := cmpf .olt main_v19 main_v20
  let main_c_7 : IVec S_ 1 := constantI S_ 1 1#1
  let main_v22 : IVec S_ 1 := (fun x v => Host.reduce IntOp.andi x v reducesTo_S16384x256_S_d0_1 h_S_) main_v21 main_c_7
  let main_v23 : IVec S_ 1 := andi main_v18 main_v22
  let main_v24 : FVec F S16384x256 .f32 := Host.absf main_arg5
  let main_cst_8 : FVec F S_ .f32 := constant S_ .f32 0x7F800000#32
  let main_v25 : FVec F S16384x256 .f32 := broadcastInDim S16384x256 ![] bcast_S_S16384x256 main_cst_8
  let main_v26 : IVec S16384x256 1 := cmpf .olt main_v24 main_v25
  let main_c_9 : IVec S_ 1 := constantI S_ 1 1#1
  let main_v27 : IVec S_ 1 := (fun x v => Host.reduce IntOp.andi x v reducesTo_S16384x256_S_d0_1 h_S_) main_v26 main_c_9
  let main_v28 : IVec S_ 1 := andi main_v23 main_v27
  main_v28

def fn {F : FTy → Type} [FloatOps F] (main_arg0 : FVec F S16384x256 .f32) (main_arg1 : FVec F S16384x256 .f32) (main_arg2 : FVec F S16384x256 .f32) (main_arg3 : FVec F S16384x256 .f32) (main_arg4 : FVec F S16384x256 .f32) (main_arg5 : FVec F S16384x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S16384x256 .f32 := Host.absf main_arg2
  let main_cst_2 : FVec F S_ .f32 := constant S_ .f32 0x7F800000#32
  let main_v10 : FVec F S16384x256 .f32 := broadcastInDim S16384x256 ![] bcast_S_S16384x256 main_cst_2
  let main_v11 : IVec S16384x256 1 := cmpf .olt main_v9 main_v10
  let main_c_3 : IVec S_ 1 := constantI S_ 1 1#1
  let main_v12 : IVec S_ 1 := (fun x v => Host.reduce IntOp.andi x v reducesTo_S16384x256_S_d0_1 h_S_) main_v11 main_c_3
  let main_v13 : IVec S_ 1 := andi main_v8 main_v12
  let main_v14 : FVec F S16384x256 .f32 := Host.absf main_arg3
  let main_cst_4 : FVec F S_ .f32 := constant S_ .f32 0x7F800000#32
  let main_v15 : FVec F S16384x256 .f32 := broadcastInDim S16384x256 ![] bcast_S_S16384x256 main_cst_4
  let main_v16 : IVec S16384x256 1 := cmpf .olt main_v14 main_v15
  fn_part1 (F := F) main_arg4 main_arg5 main_v13 main_v16
-- ==== Kernel.lean ====
abbrev S16384x256 : Shape := ⟨2, ![16384, 256]⟩
abbrev S16384x1 : Shape := ⟨2, ![16384, 1]⟩
abbrev S64x256 : Shape := ⟨2, ![64, 256]⟩
abbrev S64x1 : Shape := ⟨2, ![64, 1]⟩
abbrev S64x16x256 : Shape := ⟨3, ![64, 16, 256]⟩
abbrev S64x1x256 : Shape := ⟨3, ![64, 1, 256]⟩
abbrev S64x256x128 : Shape := ⟨3, ![64, 256, 128]⟩
abbrev S64x256x1 : Shape := ⟨3, ![64, 256, 1]⟩
abbrev S64x16x128 : Shape := ⟨3, ![64, 16, 128]⟩
abbrev S64x16 : Shape := ⟨2, ![64, 16]⟩
abbrev S64 : Shape := ⟨1, ![64]⟩
abbrev S16384 : Shape := ⟨1, ![16384]⟩
abbrev S_ : Shape := ⟨0, ![]⟩

abbrev nBuf : Space → Nat
  | .hbm => 16
  | .vmem => 14
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S16384x256, .f32⟩
  | .hbm, ⟨6, _⟩ => ⟨S16384x1, .f32⟩
  | .hbm, ⟨7, _⟩ => ⟨S16384, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S64x256, .f32⟩
  | .local _ .vmem, ⟨1, _⟩ => ⟨S64x256, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | .local _ .vmem, ⟨8, _⟩ => ⟨S64x256, .f32⟩
  | .local _ .vmem, ⟨9, _⟩ => ⟨S64x256, .f32⟩
  | .local _ .vmem, ⟨10, _⟩ => ⟨S64x256, .f32⟩
  | .local _ .vmem, ⟨11, _⟩ => ⟨S64x256, .f32⟩
  | .local _ .vmem, ⟨12, _⟩ => ⟨S64x1, .f32⟩
  | .local _ .vmem, ⟨13, _⟩ => ⟨S64x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S64x256_S64x256_0_0 : ∀ a, (![0, 0] : Fin 2 → Nat) a + S64x256.size a ≤ S64x256.size a
  h_S64x256 : 0 < S64x256.numel
  bitsLt_bf16_f32 : FTy.bits .bf16 < FTy.bits .f32
  iota_S64x16x256_d1_w32 : S64x16x256.Iotas .tc 32 [1]
  shapeCasts_S64x256_S64x1x256 : S64x256.ShapeCasts S64x1x256
  broadcasts_S64x1x256_S64x16x256 : S64x1x256.Broadcasts S64x16x256
  natLt_1_32 : 1 < 32
  iota_S64x256x128_d2_w32 : S64x256x128.Iotas .tc 32 [2]
  shapeCasts_S64x256_S64x256x1 : S64x256.ShapeCasts S64x256x1
  broadcasts_S64x256x1_S64x256x128 : S64x256x1.Broadcasts S64x256x128
  reduces_S64x16x128_S64x16 : S64x16x128.Reduces [2] S64x16
  reduces_S64x16_S64 : S64x16.Reduces [1] S64
  shapeCasts_S64_S64x1 : S64.ShapeCasts S64x1
  inb_S64x1_S64x1_0_0 : ∀ a, (![0, 0] : Fin 2 → Nat) a + S64x1.size a ≤ S64x1.size a
  h_S64x1 : 0 < S64x1.numel
  shapeCasts_S16384x1_S16384 : S16384x1.ShapeCasts S16384
  reducesTo_S16384_S_d0 : S16384.ReducesTo [0] S_
  h_S_ : 0 < S_.numel
  dot_S64x16x256_S64x256x128_S64x16x128_2_1_1_2_0_0_wf : DotDims.WF S64x16x256 S64x256x128 S64x16x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S16384x256.size a
  hwx0_0 : ∀ i : grid0.Coords, EltTy.bits .f32 = 32 ∨ (Rect.block (s := S16384x256) S64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S16384x256.size a
  hwx0_1 : ∀ i : grid0.Coords, EltTy.bits .f32 = 32 ∨ (Rect.block (s := S16384x256) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S16384x256.size a
  hwx0_2 : ∀ i : grid0.Coords, EltTy.bits .f32 = 32 ∨ (Rect.block (s := S16384x256) S64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S16384x256.size a
  hwx0_3 : ∀ i : grid0.Coords, EltTy.bits .f32 = 32 ∨ (Rect.block (s := S16384x256) S64x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S16384x256.size a
  hwx0_4 : ∀ i : grid0.Coords, EltTy.bits .f32 = 32 ∨ (Rect.block (s := S16384x256) S64x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S16384x256.size a
  hwx0_5 : ∀ i : grid0.Coords, EltTy.bits .f32 = 32 ∨ (Rect.block (s := S16384x256) S64x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S16384x1.size a
  hwx0_6 : ∀ i : grid0.Coords, EltTy.bits .f32 = 32 ∨ (Rect.block (s := S16384x1) S64x1.size (cc0_transform_6 i) (hinb0_6 i)).WholeWords (EltTy.packing .f32)

variable [Facts₀]

def dot_S64x16x256_S64x256x128_S64x16x128_2_1_1_2_0_0 : DotDims S64x16x256 S64x256x128 S64x16x128 where
  lhsContracting := [2]
  rhsContracting := [1]
  lhsNonContracting := [1]
  rhsNonContracting := [2]
  lhsBatch := [0]
  rhsBatch := [0]
  wf := dot_S64x16x256_S64x256x128_S64x16x128_2_1_1_2_0_0_wf

abbrev win0_0 : Pipeline.Window sig grid0 :=
  Pipeline.Window.ofSpec (Memref.whole main_arg0) S64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S64x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S4194304 : Shape := ⟨1, ![4194304]⟩
abbrev S32768000 : Shape := ⟨1, ![32768000]⟩
abbrev S4194304x1 : Shape := ⟨2, ![4194304, 1]⟩
abbrev S16384x2000 : Shape := ⟨2, ![16384, 2000]⟩

abbrev nBuf : Space → Nat
  | .hbm => 113
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S16384x256, .f32⟩
  | .hbm, ⟨6, _⟩ => ⟨S16384x256, .f32⟩
  | .hbm, ⟨7, _⟩ => ⟨S_, .f32⟩
  | .hbm, ⟨8, _⟩ => ⟨S16384x256, .f32⟩
  | .hbm, ⟨9, _⟩ => ⟨S16384x256, .f32⟩
  | .hbm, ⟨10, _⟩ => ⟨S_, .f32⟩
  | .hbm, ⟨11, _⟩ => ⟨S16384x256, .f32⟩
  | .hbm, ⟨12, _⟩ => ⟨S16384x256, .f32⟩
  | .hbm, ⟨13, _⟩ => ⟨S16384x256, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S16384x256, .i32⟩
  | .hbm, ⟨18, _⟩ => ⟨S16384x256, .i32⟩
  | .hbm, ⟨19, _⟩ => ⟨S_, .i32⟩
  | .hbm, ⟨20, _⟩ => ⟨S16384x256, .i32⟩
  | .hbm, ⟨21, _⟩ => ⟨S16384x256, .i32⟩
  | .hbm, ⟨22, _⟩ => ⟨S16384, .i32⟩
  | .hbm, ⟨23, _⟩ => ⟨S16384x1, .i32⟩
  | .hbm, ⟨24, _⟩ => ⟨S_, .i32⟩
  | .hbm, ⟨25, _⟩ => ⟨S16384x1, .i32⟩
  | .hbm, ⟨26, _⟩ => ⟨S16384x1, .i32⟩
  | .hbm, ⟨27, _⟩ => ⟨S16384x256, .i32⟩
  | .hbm, ⟨28, _⟩ => ⟨S16384x256, .i32⟩
  | .hbm, ⟨29, _⟩ => ⟨S4194304, .i32⟩
  | .hbm, ⟨30, _⟩ => ⟨S4194304, .f32⟩
  | .hbm, ⟨31, _⟩ => ⟨S_, .f32⟩
  | .hbm, ⟨32, _⟩ => ⟨S32768000, .f32⟩
  | .hbm, ⟨33, _⟩ => ⟨S4194304x1, .i32⟩
  | .hbm, ⟨34, _⟩ => ⟨S32768000, .f32⟩
  | .hbm, ⟨35, _⟩ => ⟨S16384x2000, .f32⟩
  | .hbm, ⟨36, _⟩ => ⟨S16384x2000, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x2000, .f32⟩
  | .hbm, ⟨45, _⟩ => ⟨S16384x2000, .f32⟩
  | .hbm, ⟨46, _⟩ => ⟨S16384x256, .f32⟩
  | .hbm, ⟨47, _⟩ => ⟨S_, .f32⟩
  | .hbm, ⟨48, _⟩ => ⟨S16384x256, .f32⟩
  | .hbm, ⟨49, _⟩ => ⟨S16384x256, .f32⟩
  | .hbm, ⟨50, _⟩ => ⟨S_, .f32⟩
  | .hbm, ⟨51, _⟩ => ⟨S16384x256, .f32⟩
  | .hbm, ⟨52, _⟩ => ⟨S16384x256, .f32⟩
  | .hbm, ⟨53, _⟩ => ⟨S16384x256, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S16384x256, .i32⟩
  | .hbm, ⟨58, _⟩ => ⟨S16384x256, .i32⟩
  | .hbm, ⟨59, _⟩ => ⟨S_, .i32⟩
  | .hbm, ⟨60, _⟩ => ⟨S16384x256, .i32⟩
  | .hbm, ⟨61, _⟩ => ⟨S16384x256, .i32⟩
  | .hbm, ⟨62, _⟩ => ⟨S16384, .i32⟩
  | .hbm, ⟨63, _⟩ => ⟨S16384x1, .i32⟩
  | .hbm, ⟨64, _⟩ => ⟨S_, .i32⟩
  | .hbm, ⟨65, _⟩ => ⟨S16384x1, .i32⟩
  | .hbm, ⟨66, _⟩ => ⟨S16384x1, .i32⟩
  | .hbm, ⟨67, _⟩ => ⟨S16384x256, .i32⟩
  | .hbm, ⟨68, _⟩ => ⟨S16384x256, .i32⟩
  | .hbm, ⟨69, _⟩ => ⟨S4194304, .i32⟩
  | .hbm, ⟨70, _⟩ => ⟨S4194304, .f32⟩
  | .hbm, ⟨71, _⟩ => ⟨S_, .f32⟩
  | .hbm, ⟨72, _⟩ => ⟨S32768000, .f32⟩
  | .hbm, ⟨73, _⟩ => ⟨S4194304x1, .i32⟩
  | .hbm, ⟨74, _⟩ => ⟨S32768000, .f32⟩
  | .hbm, ⟨75, _⟩ => ⟨S16384x2000, .f32⟩
  | .hbm, ⟨76, _⟩ => ⟨S16384x2000, .f32⟩
  | .hbm, ⟨77, _⟩ => ⟨S_, .f32⟩
  | .hbm, ⟨78, _⟩ => ⟨S16384, .f32⟩
  | .hbm, ⟨79, _⟩ => ⟨S16384x1, .f32⟩
  | .hbm, ⟨80, _⟩ => ⟨S16384x1, .f32⟩
  | .hbm, ⟨81, _⟩ => ⟨S_, .f32⟩
  | .hbm, ⟨82, _⟩ => ⟨S16384x1, .f32⟩
  | .hbm, ⟨83, _⟩ => ⟨S16384x1, .f32⟩
  | .hbm, ⟨84, _⟩ => ⟨S16384x2000, .f32⟩
  | .hbm, ⟨85, _⟩ => ⟨S16384x2000, .f32⟩
  | .hbm, ⟨86, _⟩ => ⟨S16384x2000, .f32⟩
  | .hbm, ⟨87, _⟩ => ⟨S_, .f32⟩
  | .hbm, ⟨88, _⟩ => ⟨S16384, .f32⟩
  | .hbm, ⟨89, _⟩ => ⟨S16384x2000, .f32⟩
  | .hbm, ⟨90, _⟩ => ⟨S_, .f32⟩
  | .hbm, ⟨91, _⟩ => ⟨S16384, .f32⟩
  | .hbm, ⟨92, _⟩ => ⟨S16384, .f32⟩
  | .hbm, ⟨93, _⟩ => ⟨S16384x2000, .f32⟩
  | .hbm, ⟨94, _⟩ => ⟨S_, .f32⟩
  | .hbm, ⟨95, _⟩ => ⟨S16384, .f32⟩
  | .hbm, ⟨96, _⟩ => ⟨S16384, .f32⟩
  | .hbm, ⟨97, _⟩ => ⟨S_, .f32⟩
  | .hbm, ⟨98, _⟩ => ⟨S16384, .f32⟩
  | .hbm, ⟨99, _⟩ => ⟨S16384, .f32⟩
  | .hbm, ⟨100, _⟩ => ⟨S_, .f32⟩
  | .hbm, ⟨101, _⟩ => ⟨S16384, .f32⟩
  | .hbm, ⟨102, _⟩ => ⟨S16384, .f32⟩
  | .hbm, ⟨103, _⟩ => ⟨S16384, .f32⟩
  | .hbm, ⟨104, _⟩ => ⟨S16384, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_8 : Ref sig .tc := ⟨.hbm, 54, rfl⟩
abbrev main_c_9 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_10 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_11 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_12 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_13 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_14 : Ref sig .tc := ⟨.hbm, 87, rfl⟩
abbrev main_v55 : Ref sig .tc := ⟨.hbm, 88, rfl⟩
abbrev main_v56 : Ref sig .tc := ⟨.hbm, 89, rfl⟩
abbrev main_cst_15 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_16 : Ref sig .tc := ⟨.hbm, 94, rfl⟩
abbrev main_v60 : Ref sig .tc := ⟨.hbm, 95, rfl⟩
abbrev main_v61 : Ref sig .tc := ⟨.hbm, 96, rfl⟩
abbrev main_cst_17 : Ref sig .tc := ⟨.hbm, 97, rfl⟩
abbrev main_v62 : Ref sig .tc := ⟨.hbm, 98, rfl⟩
abbrev main_v63 : Ref sig .tc := ⟨.hbm, 99, rfl⟩
abbrev main_cst_18 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_19 : Ref sig .tc := ⟨.hbm, 105, rfl⟩
abbrev main_v68 : Ref sig .tc := ⟨.hbm, 106, rfl⟩
abbrev main_cst_20 : Ref sig .tc := ⟨.hbm, 107, rfl⟩
abbrev main_v69 : Ref sig .tc := ⟨.hbm, 108, rfl⟩
abbrev main_cst_21 : Ref sig .tc := ⟨.hbm, 109, rfl⟩
abbrev main_v70 : Ref sig .tc := ⟨.hbm, 110, rfl⟩
abbrev main_cst_22 : Ref sig .tc := ⟨.hbm, 111, rfl⟩
abbrev main_v71 : Ref sig .tc := ⟨.hbm, 112, rfl⟩

abbrev nD : Nat := 1
abbrev τ : Topo := Topo.v7x

variable {F : FTy → Type} [FloatOps F]

class Facts₀ : Prop where
  bcast_S_S16384x256 : S_.BroadcastsInDim S16384x256 (![] : Fin 0 → Fin S16384x256.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  shapeCasts_S16384x256_S4194304 : S16384x256.ShapeCasts S4194304
  bcast_S_S32768000 : S_.BroadcastsInDim S32768000 (![] : Fin 0 → Fin S32768000.rank)
  bcast_S4194304_S4194304x1_0 : S4194304.BroadcastsInDim S4194304x1 (![0] : Fin 1 → Fin S4194304x1.rank)
  shapeCasts_S32768000_S16384x2000 : S32768000.ShapeCasts S16384x2000
  reducesTo_S16384x2000_S16384_d1 : S16384x2000.ReducesTo [1] S16384
  h_S_ : 0 < S_.numel
  bcast_S16384x1_S16384x2000_0_1 : S16384x1.BroadcastsInDim S16384x2000 (![0, 1] : Fin 2 → Fin S16384x2000.rank)
  bcast_S_S16384 : S_.BroadcastsInDim S16384 (![] : Fin 0 → Fin S16384.rank)
  reducesTo_S16384_S_d0 : S16384.ReducesTo [0] S_
  scatter_S32768000_S4194304x1_S4194304_n_0_0_1_wf : ScatterDims.WF S32768000 S4194304x1 S4194304 [] [0] [0] 1

variable [Facts₀]

def scatter_S32768000_S4194304x1_S4194304_n_0_0_1 : ScatterDims S32768000 S4194304x1 S4194304 where
  updateWindowDims := []
  insertedWindowDims := [0]
  scatterDimsToOperandDims := [0]
  indexVectorDim := 1
  wf := scatter_S32768000_S4194304x1_S4194304_n_0_0_1_wf

class Facts : Prop extends Facts₀ where

variable [Facts]
-- ==== Proof.Spec.lean ====
/-
  The common specification both programs are compared against, row by row, on the extended reals.

  A row holds 256 peaks, each with a position and a weight.  A peak's BIN is its position times 2000, rounded toward
  zero and kept inside 0 … 1999.  The row's HISTOGRAM gives each of the 2000 bins the sum of the weights of the peaks that
  fall in it.  From the histograms `a` (predicted) and `b` (target) of one row the result is a cosine similarity built
  from three numbers only — `∑ a²`, `∑ b²` and `∑ a·b` — and the final scalar is one minus the mean of the rows' cosines.

  Two spellings of the row's value are stated here beside the specification itself: the one that lays the histogram out as
  16 × 128 cells (cell `(h, l)` is bin `128·h + l`, found by comparing `h` with the bin shifted right by seven places and `l`
  with the bin's low seven bits), and the one that first divides each histogram by its norm plus `ε` and then takes the
  cosine of the two normalized rows.  That all three agree is proved in `Bins.lean` and `Normalize.lean`.
-/
import Idealize.ShloMosaic.PureOps.Ideal
import Idealize.ShloMosaic.PureOps.Ideal.Laws
import Idealize.ShloMosaic.PureOps.Contract
import Idealize.ShloMosaic.PureOps.Vector
import Idealize.ShloMosaic.Lib.ValueIdx

noncomputable section

namespace Cert.Spectrum

open Idealize.ShloMosaic

/-- The bins' scale, 2000. -/
abbrev scale : EReal := Ideal.ofBits .f32 0x44FA0000#32
/-- The small constant `ε` added to a norm and used as a floor. -/
abbrev eps : EReal := Ideal.ofBits .f32 0x322BCC77#32

/-- A peak's bin: the position times 2000, rounded toward zero, kept inside 0 … 1999. -/
def bin (x : EReal) : BitVec 32 :=
  IntOp.minsi 1999#32 (IntOp.maxsi 0#32 (Ideal.fptosi 32 (x * scale)))

/-- One when `h` is the bin shifted right by seven places (its quotient by 128), else zero. -/
def isHi (h : Fin 16) (β : BitVec 32) : EReal :=
  (((BitVec.setWidth 32 (IntOp.cmpi .eq (BitVec.ofNat 32 h.val) (IntOp.shrsi .vector β 7#32))).toInt : ℝ) : EReal)

/-- One when `l` is the bin's low seven bits (its remainder by 128), else zero. -/
def isLo (l : Fin 128) (β : BitVec 32) : EReal :=
  (((BitVec.setWidth 32 (IntOp.cmpi .eq (BitVec.ofNat 32 l.val) (IntOp.andi β 127#32))).toInt : ℝ) : EReal)

/-- The histogram laid out as 16 × 128 cells: cell `(h, l)` sums the weights of the peaks whose bin is `128·h + l`. -/
def cells (β : Fin 256 → BitVec 32) (w : Fin 256 → EReal) (h : Fin 16) (l : Fin 128) : EReal :=
  ∑ p : Fin 256, (isHi h (β p) * w p) * isLo l (β p)

/-- The histogram over the 2000 bins: bin `j` sums the weights of the peaks whose bin is `j`. -/
def hist (β : Fin 256 → BitVec 32) (w : Fin 256 → EReal) (j : Fin 2000) : EReal :=
  ∑ p : Fin 256, if (β p).toNat = j.val then w p else 0

/-- The row's cosine from the three sums `∑ a²`, `∑ b²`, `∑ a·b`: with `na = √∑a²`, `nb = √∑b²`,
    `(∑ a·b / ((na + ε)(nb + ε))) / (max (na / (na + ε)) ε · max (nb / (nb + ε)) ε)`. -/
def cosOf (saa sbb sab : EReal) : EReal :=
  Ideal.div (Ideal.div sab ((Ideal.sqrt saa + eps) * (Ideal.sqrt sbb + eps)))
    (max (Ideal.div (Ideal.sqrt saa) (Ideal.sqrt saa + eps)) eps * max (Ideal.div (Ideal.sqrt sbb) (Ideal.sqrt sbb + eps)) eps)

/-- The row's cosine, from the peaks' positions and weights: THE SPECIFICATION of one row. -/
def rowCos (posA wA posB wB : Fin 256 → EReal) : EReal :=
  cosOf (∑ j : Fin 2000, hist (fun p => bin (posA p)) wA j * hist (fun p => bin (posA p)) wA j)
    (∑ j : Fin 2000, hist (fun p => bin (posB p)) wB j * hist (fun p => bin (posB p)) wB j)
    (∑ j : Fin 2000, hist (fun p => bin (posA p)) wA j * hist (fun p => bin (posB p)) wB j)

/-- The same through the 16 × 128 layout of the two histograms. -/
def rowCosCells (posA wA posB wB : Fin 256 → EReal) : EReal :=
  cosOf (∑ h : Fin 16, ∑ l : Fin 128, cells (fun p => bin (posA p)) wA h l * cells (fun p => bin (posA p)) wA h l)
    (∑ h : Fin 16, ∑ l : Fin 128, cells (fun p => bin (posB p)) wB h l * cells (fun p => bin (posB p)) wB h l)
    (∑ h : Fin 16, ∑ l : Fin 128, cells (fun p => bin (posA p)) wA h l * cells (fun p => bin (posB p)) wB h l)

/-- The cosine of two histograms each first divided by its norm plus `ε`: with `a' = a / (√∑a² + ε)` and
    `b' = b / (√∑b² + ε)`, `∑ a'·b' / (max (√∑a'²) ε · max (√∑b'²) ε)`. -/
def cosNormalized (a b : Fin 2000 → EReal) : EReal :=
  Ideal.div
    (∑ j : Fin 2000, Ideal.div (a j) (Ideal.sqrt (∑ k : Fin 2000, a k * a k) + eps)
      * Ideal.div (b j) (Ideal.sqrt (∑ k : Fin 2000, b k * b k) + eps))
    (max (Ideal.sqrt (∑ j : Fin 2000, Ideal.div (a j) (Ideal.sqrt (∑ k : Fin 2000, a k * a k) + eps)
        * Ideal.div (a j) (Ideal.sqrt (∑ k : Fin 2000, a k * a k) + eps))) eps
      * max (Ideal.sqrt (∑ j : Fin 2000, Ideal.div (b j) (Ideal.sqrt (∑ k : Fin 2000, b k * b k) + eps)
        * Ideal.div (b j) (Ideal.sqrt (∑ k : Fin 2000, b k * b k) + eps))) eps)

/-- The same row through normalized histograms. -/
def rowCosNormalized (posA wA posB wB : Fin 256 → EReal) : EReal :=
  cosNormalized (hist (fun p => bin (posA p)) wA) (hist (fun p => bin (posB p)) wB)

/-- The vector of 16384 rows and the scalar shape. -/
abbrev Rows : Shape := ⟨1, ![16384]⟩
abbrev Scalar0 : Shape := ⟨0, ![]⟩
/-- The six argument arrays' shape, 16384 rows of 256 peaks. -/
abbrev Peaks : Shape := ⟨2, ![16384, 256]⟩

/-- From the rows' cosines to the result: `1 · (1 − (0 + ∑ rows) / 16384)`, in the host's own operations. -/
def finish (hred : Rows.ReducesTo [0] Scalar0) (hpos : 0 < Scalar0.numel) (v : Rows.Idx → EReal) : Scalar0.Idx → EReal :=
  mulf (F := Ideal) (constant (F := Ideal) Scalar0 .f32 0x3F800000#32)
    (subf (F := Ideal) (constant (F := Ideal) Scalar0 .f32 0x3F800000#32)
      (Host.divf (F := Ideal) (Host.reduceAdd (F := Ideal) (φ := .f32) v (constant (F := Ideal) Scalar0 .f32 0x00000000#32) hred hpos)
        (constant (F := Ideal) Scalar0 .f32 0x46800000#32)))

/-- Row `r` of an argument array, as a function of the peak. -/
def rowOf (x : Peaks.Idx → EReal) (r : Fin 16384) : Fin 256 → EReal := fun p => x (ValueIdx.ix2 r p)

/-- The weights of a row: the product of two argument arrays there. -/
def weightOf (x y : Peaks.Idx → EReal) (r : Fin 16384) : Fin 256 → EReal :=
  fun p => x (ValueIdx.ix2 r p) * y (ValueIdx.ix2 r p)

/-- THE SPECIFICATION: the result as one function of the six argument arrays
    (predicted positions, intensities, confidences; target positions, intensities, mask). -/
def result (hred : Rows.ReducesTo [0] Scalar0) (hpos : 0 < Scalar0.numel)
    (x0 x1 x2 x3 x4 x5 : Peaks.Idx → EReal) : Scalar0.Idx → EReal :=
  finish hred hpos (fun b => rowCos (rowOf x0 (b 0)) (weightOf x1 x2 (b 0)) (rowOf x3 (b 0)) (weightOf x4 x5 (b 0)))

end Cert.Spectrum

end
-- ==== Proof.KernelArray.lean ====
/-
  The output array of the kernel's one region, as a function of the six argument arrays.

  The grid has 256 points; point `t` works on rows `64·t … 64·t + 63` of every array: its six input blocks are those rows
  of the six arguments (`blockOf`, `iblk_eq0` … `iblk_eq5`), and what it writes back are those rows of the output.  So
  row `r` of the output array after the run is the body's result for the blocks of point `r / 64`, read at row `r % 64`
  (`rowOut`, `G`, `final`): the blocks written back cover the array, and each is the matching block of `G`.
-/
import proofs.«131988_j54434415509810_2_alg».proof.Proof.Gen.KernelIdeal.Frame
import proofs.«131988_j54434415509810_2_alg».proof.Proof.Spec
import Idealize.ShloMosaic.Lib.Pipeline.Value
import Idealize.ShloMosaic.Lib.StableHlo.Run
import Idealize.ShloMosaic.Lib.ValueIdx

noncomputable section

namespace Cert.KernelIdeal.RunValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- Rows `64·t … 64·t + 63` of an array of 16384 rows of 256 peaks: the block of the array that grid point `t` works on. -/
def blockOf (x : S16384x256.Idx → EReal) (t : Fin 256) : S64x256.Idx → EReal :=
  fun y => x (ix2 (⟨64 * t.val + (y 0).val, by have := idx2_lt0 y; have := t.isLt; omega⟩ : Fin 16384) (⟨(y 1).val, idx2_lt1 y⟩ : Fin 256))

/-- The grid has 256 points. -/
theorem N_eq : cfg0.N = 256 := N_0

/-- A grid point as a number below 256. -/
abbrev pt (t : Fin cfg0.N) : Fin 256 := ⟨t.val, by have := t.isLt; have := N_eq; omega⟩

/-- The index maps, decided over the grid: at point `t` every window is at block row `t`, block column 0. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-- Input window 0's block at point `t` is rows `64·t … 64·t + 63` of argument 0. -/
theorem iblk_eq0 (c : Dev nD) (t : Fin cfg0.N) :
    Gen.iblk m c 0 t = blockOf (m ((c.tc : Thread nD τ).loc main_arg0)) (pt t) := by
  obtain ⟨e0, e1⟩ := (index_facts t).1
  funext y
  unfold Gen.iblk blockOf
  rw [View.read_apply]
  show V m c main_arg0 _ = m ((c.tc : Thread nD τ).loc main_arg0) _
  unfold V
  congr 1
  funext a
  apply Fin.ext
  match a with
  | ⟨0, _⟩ => show win0_0.index t (0 : Fin 2) * 64 + 1 * (y 0).val = 64 * t.val + (y 0).val; rw [e0]; omega
  | ⟨1, _⟩ => show win0_0.index t (1 : Fin 2) * 256 + 1 * (y 1).val = (y 1).val; rw [e1]; omega

/-- Input window 1's block at point `t` is rows `64·t … 64·t + 63` of argument 1. -/
theorem iblk_eq1 (c : Dev nD) (t : Fin cfg0.N) :
    Gen.iblk m c 1 t = blockOf (m ((c.tc : Thread nD τ).loc main_arg1)) (pt t) := by
  obtain ⟨e0, e1⟩ := (index_facts t).2.1
  funext y
  unfold Gen.iblk blockOf
  rw [View.read_apply]
  show V m c main_arg1 _ = m ((c.tc : Thread nD τ).loc main_arg1) _
  unfold V
  congr 1
  funext a
  apply Fin.ext
  match a with
  | ⟨0, _⟩ => show win0_1.index t (0 : Fin 2) * 64 + 1 * (y 0).val = 64 * t.val + (y 0).val; rw [e0]; omega
  | ⟨1, _⟩ => show win0_1.index t (1 : Fin 2) * 256 + 1 * (y 1).val = (y 1).val; rw [e1]; omega

/-- Input window 2's block at point `t` is rows `64·t … 64·t + 63` of argument 2. -/
theorem iblk_eq2 (c : Dev nD) (t : Fin cfg0.N) :
    Gen.iblk m c 2 t = blockOf (m ((c.tc : Thread nD τ).loc main_arg2)) (pt t) := by
  obtain ⟨e0, e1⟩ := (index_facts t).2.2.1
  funext y
  unfold Gen.iblk blockOf
  rw [View.read_apply]
  show V m c main_arg2 _ = m ((c.tc : Thread nD τ).loc main_arg2) _
  unfold V
  congr 1
  funext a
  apply Fin.ext
  match a with
  | ⟨0, _⟩ => show win0_2.index t (0 : Fin 2) * 64 + 1 * (y 0).val = 64 * t.val + (y 0).val; rw [e0]; omega
  | ⟨1, _⟩ => show win0_2.index t (1 : Fin 2) * 256 + 1 * (y 1).val = (y 1).val; rw [e1]; omega

/-- Input window 3's block at point `t` is rows `64·t … 64·t + 63` of argument 3. -/
theorem iblk_eq3 (c : Dev nD) (t : Fin cfg0.N) :
    Gen.iblk m c 3 t = blockOf (m ((c.tc : Thread nD τ).loc main_arg3)) (pt t) := by
  obtain ⟨e0, e1⟩ := (index_facts t).2.2.2.1
  funext y
  unfold Gen.iblk blockOf
  rw [View.read_apply]
  show V m c main_arg3 _ = m ((c.tc : Thread nD τ).loc main_arg3) _
  unfold V
  congr 1
  funext a
  apply Fin.ext
  match a with
  | ⟨0, _⟩ => show win0_3.index t (0 : Fin 2) * 64 + 1 * (y 0).val = 64 * t.val + (y 0).val; rw [e0]; omega
  | ⟨1, _⟩ => show win0_3.index t (1 : Fin 2) * 256 + 1 * (y 1).val = (y 1).val; rw [e1]; omega

/-- Input window 4's block at point `t` is rows `64·t … 64·t + 63` of argument 4. -/
theorem iblk_eq4 (c : Dev nD) (t : Fin cfg0.N) :
    Gen.iblk m c 4 t = blockOf (m ((c.tc : Thread nD τ).loc main_arg4)) (pt t) := by
  obtain ⟨e0, e1⟩ := (index_facts t).2.2.2.2.1
  funext y
  unfold Gen.iblk blockOf
  rw [View.read_apply]
  show V m c main_arg4 _ = m ((c.tc : Thread nD τ).loc main_arg4) _
  unfold V
  congr 1
  funext a
  apply Fin.ext
  match a with
  | ⟨0, _⟩ => show win0_4.index t (0 : Fin 2) * 64 + 1 * (y 0).val = 64 * t.val + (y 0).val; rw [e0]; omega
  | ⟨1, _⟩ => show win0_4.index t (1 : Fin 2) * 256 + 1 * (y 1).val = (y 1).val; rw [e1]; omega

/-- Input window 5's block at point `t` is rows `64·t … 64·t + 63` of argument 5. -/
theorem iblk_eq5 (c : Dev nD) (t : Fin cfg0.N) :
    Gen.iblk m c 5 t = blockOf (m ((c.tc : Thread nD τ).loc main_arg5)) (pt t) := by
  obtain ⟨e0, e1⟩ := (index_facts t).2.2.2.2.2.1
  funext y
  unfold Gen.iblk blockOf
  rw [View.read_apply]
  show V m c main_arg5 _ = m ((c.tc : Thread nD τ).loc main_arg5) _
  unfold V
  congr 1
  funext a
  apply Fin.ext
  match a with
  | ⟨0, _⟩ => show win0_5.index t (0 : Fin 2) * 64 + 1 * (y 0).val = 64 * t.val + (y 0).val; rw [e0]; omega
  | ⟨1, _⟩ => show win0_5.index t (1 : Fin 2) * 256 + 1 * (y 1).val = (y 1).val; rw [e1]; omega

/-- Row `r` of the arrays is row `r % 64` of the block of point `r / 64`. -/
abbrev ptOf (r : Fin 16384) : Fin 256 := ⟨r.val / 64, by have := r.isLt; omega⟩
abbrev inOf (r : Fin 16384) : Fin 64 := ⟨r.val % 64, by omega⟩

/-- What the run leaves at row `r` of the output array: the body's result for the six blocks of point `r / 64`, at row
    `r % 64` of the block. -/
def rowOut (x0 x1 x2 x3 x4 x5 : S16384x256.Idx → EReal) (r : Fin 16384) : EReal :=
  Gen.out0_6 (F := Ideal) (blockOf x0 (ptOf r)) (blockOf x1 (ptOf r)) (blockOf x2 (ptOf r)) (blockOf x3 (ptOf r)) (blockOf x4 (ptOf r)) (blockOf x5 (ptOf r)) (ix2 (inOf r) (0 : Fin 1))

/-- The output array after the run, as one function of the six argument arrays. -/
def G (x0 x1 x2 x3 x4 x5 : S16384x256.Idx → EReal) : S16384x1.Idx → EReal :=
  fun i => rowOut x0 x1 x2 x3 x4 x5 (⟨(i 0).val, idx2_lt0 i⟩ : Fin 16384)

/-- Row `64·t + y₀` of the output is the body's result for point `t`'s blocks at the block's index `y`. -/
theorem rowOut_at (x0 x1 x2 x3 x4 x5 : S16384x256.Idx → EReal) (t : Fin 256) (y : S64x1.Idx) (r : Fin 16384)
    (hr : r.val = t.val * 64 + 1 * (y 0).val) :
    rowOut x0 x1 x2 x3 x4 x5 r = Gen.out0_6 (F := Ideal) (blockOf x0 t) (blockOf x1 t) (blockOf x2 t) (blockOf x3 t) (blockOf x4 t) (blockOf x5 t) y := by
  have hy0 := idx2_lt0 y
  have hy1 := idx2_lt1 y
  have e1 : ptOf r = t := Fin.ext (by show r.val / 64 = t.val; omega)
  have e2 : ix2 (inOf r) (0 : Fin 1) = y := by
    funext a
    match a with
    | ⟨0, _⟩ => exact Fin.ext (by show r.val % 64 = (y 0).val; omega)
    | ⟨1, _⟩ => exact Fin.ext (by show 0 = (y 1).val; omega)
  unfold rowOut
  rw [e1, e2]

/-- What point `t` writes back is block `t` of `G` of the argument arrays. -/
theorem flushed_eq (c : Dev nD) (t : Fin cfg0.N) :
    (dats m 0 c).flushed 6 t = ((cfg0.win 6).blk t).view.read (Elt Ideal)
      (G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  show (cfg0.win 6).cut (grid0.coords t) ((dats m 0 c).after 6 t) = _
  rw [after0_6, iblk_eq0, iblk_eq1, iblk_eq2, iblk_eq3, iblk_eq4, iblk_eq5]
  obtain ⟨e0, e1⟩ := (index_facts t).2.2.2.2.2.2
  funext j
  show Gen.out0_6 (F := Ideal) (blockOf (m ((c.tc : Thread nD τ).loc main_arg0)) (pt t)) (blockOf (m ((c.tc : Thread nD τ).loc main_arg1)) (pt t)) (blockOf (m ((c.tc : Thread nD τ).loc main_arg2)) (pt t)) (blockOf (m ((c.tc : Thread nD τ).loc main_arg3)) (pt t)) (blockOf (m ((c.tc : Thread nD τ).loc main_arg4)) (pt t)) (blockOf (m ((c.tc : Thread nD τ).loc main_arg5)) (pt t)) j
    = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (((cfg0.win 6).blk t).view.emb j)
  unfold G
  refine (rowOut_at _ _ _ _ _ _ (pt t) j _ ?_).symm
  show win0_6.index t (0 : Fin 2) * 64 + 1 * (j 0).val = t.val * 64 + 1 * (j 0).val
  rw [e0]

/-- An index of the output array is in point `t`'s block iff each coordinate is in the block's range on its axis. -/
theorem mem_blk (t : Fin cfg0.N) (i : S16384x1.Idx) :
    i ∈ ((cfg0.win 6).blk t).view.set ↔ ∀ a : Fin 2, win0_6.index t a * S64x1.size a ≤ (i a).val ∧ (i a).val < win0_6.index t a * S64x1.size a + S64x1.size a := by
  show i ∈ ((View.whole main_v0).slice (win0_6.rect t)).set ↔ _
  rw [View.set_slice_whole, Rect.mem_set_unit]
  exact Iff.rfl

/-- Every row of the output array is in the block of the point `row / 64`, and every point writes its block back. -/
theorem cover (i : S16384x1.Idx) : ∃ t : Fin cfg0.N, (cfg0.win 6).flush t = true ∧ i ∈ ((cfg0.win 6).blk t).view.set := by
  have hi0 := idx2_lt0 i
  have hi1 := idx2_lt1 i
  have hN := N_eq
  refine ⟨⟨(i 0).val / 64, by omega⟩, flush0_6 _, ?_⟩
  rw [mem_blk]
  obtain ⟨e0, e1⟩ := (index_facts ⟨(i 0).val / 64, by omega⟩).2.2.2.2.2.2
  intro a
  match a with
  | ⟨0, _⟩ =>
    show win0_6.index _ (0 : Fin 2) * 64 ≤ (i 0).val ∧ (i 0).val < win0_6.index _ (0 : Fin 2) * 64 + 64
    rw [e0]; show (i 0).val / 64 * 64 ≤ (i 0).val ∧ (i 0).val < (i 0).val / 64 * 64 + 64; omega
  | ⟨1, _⟩ =>
    show win0_6.index _ (1 : Fin 2) * 1 ≤ (i 1).val ∧ (i 1).val < win0_6.index _ (1 : Fin 2) * 1 + 1
    rw [e1]; omega

/-- The output array after the run is `G` of the argument arrays. -/
theorem final (c : Dev nD) : (dats m 0 c).arrAt 6 cfg0.N
    = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (dats m 0 c).arrAt_eq_of_cover 6 _ (fun t _ => flushed_eq m c t) cover

end Cert.KernelIdeal.RunValue

end
-- ==== Proof.KernelRun.lean ====
/-
  The idealized kernel's run with its result named.

  After the one region the output array holds `G` of the six arguments (`final`).  The nine host lines after it reshape its
  one column to the vector of rows, sum the rows from zero, divide by 16384, take the quotient from one and multiply by
  one: `Cert.Spectrum.finish` of the rows' values (`tail_eq`).  The arguments are staged, never written back, so they end
  as they began (`kernel_run`).
-/
import proofs.«131988_j54434415509810_2_alg».proof.Proof.KernelArray

noncomputable section

namespace Cert.KernelIdeal.RunValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- A row number below 16384, off an index of the vector of rows. -/
theorem row_lt (b : Cert.Spectrum.Rows.Idx) : (b 0).val < 16384 := (b 0).isLt

/-- The rows' values as the vector the host's reduction adds up. -/
def rowsOut (x0 x1 x2 x3 x4 x5 : S16384x256.Idx → EReal) : Cert.Spectrum.Rows.Idx → EReal :=
  fun b => rowOut x0 x1 x2 x3 x4 x5 (⟨(b 0).val, row_lt b⟩ : Fin 16384)

/-- Row `r`'s value spelled out: the body's result for the six blocks of point `r / 64`, at row `r % 64`. -/
theorem rowsOut_apply (x0 x1 x2 x3 x4 x5 : S16384x256.Idx → EReal) (b : Cert.Spectrum.Rows.Idx) :
    rowsOut x0 x1 x2 x3 x4 x5 b
      = Gen.out0_6 (F := Ideal) (blockOf x0 ⟨(b 0).val / 64, by have := row_lt b; omega⟩) (blockOf x1 ⟨(b 0).val / 64, by have := row_lt b; omega⟩) (blockOf x2 ⟨(b 0).val / 64, by have := row_lt b; omega⟩) (blockOf x3 ⟨(b 0).val / 64, by have := row_lt b; omega⟩) (blockOf x4 ⟨(b 0).val / 64, by have := row_lt b; omega⟩) (blockOf x5 ⟨(b 0).val / 64, by have := row_lt b; omega⟩)
          (ix2 (⟨(b 0).val % 64, by omega⟩ : Fin 64) (0 : Fin 1)) := rfl

/-- The output array as the lines after the region find it. -/
theorem tail_array (c : Dev nD) :
    Pipeline.withArrays (cfgs 0).spec c (V0 m c) (fun w => (dats m 0 c).arrAt w (cfgs 0).N) (Proc.devRef .tc main_v0)
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (Pipeline.withArrays_arr spec0 launch0.win.arr_inj c _ _ 6).trans (final m c)

/-- What the host lines after the region leave in the result buffer: the output array's one column as the vector of
    rows, summed from zero, divided by 16384, taken from one, times one. -/
theorem tail_eq (c : Dev nD) :
    Pipeline.afterTail₀ cfgs (dats m) 0 (V0 m) [hostOps1] c main_v5
      = Cert.Spectrum.finish reducesTo_S16384_S_d0 h_S_ (rowsOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  unfold Pipeline.afterTail₀
  show StableHlo.after hostOps1 _ (Proc.devRef .tc main_v5) = _
  after_results
  refine congrArg (Cert.Spectrum.finish reducesTo_S16384_S_d0 h_S_) ?_
  refine funext fun (b : S16384.Idx) => ?_
  show shapeCast S16384 (Pipeline.withArrays (cfgs 0).spec c (V0 m c) (fun w => (dats m 0 c).arrAt w (cfgs 0).N)
      (Proc.devRef .tc main_v0)) shapeCasts_S16384x1_S16384 b = _
  refine (shapeCast_apply _ _ b (ix2 (⟨(b 0).val, row_lt b⟩ : Fin 16384) (0 : Fin 1)) ?_).trans ?_
  · show (S16384x1.rowMajor (ix2 (⟨(b 0).val, row_lt b⟩ : Fin 16384) (0 : Fin 1))).val = (S16384.rowMajor b).val
    rw [Shape.rowMajor_val_two, Shape.rowMajor_val_one]
    show (b 0).val * 1 + 0 = (b 0).val
    omega
  · rw [tail_array]
    rfl

/-- THE KERNEL'S RUN: every weakly fair execution ends with the result buffer at `finish` of the rows' values and the six
    arguments unchanged. -/
theorem kernel_run : θ_run (defs (F := Ideal)) (onTc (τ := τ) (main (F := Ideal))) ⟨m, fun _ => 0, ρ⟩ (fun r => ∀ c : Dev nD,
    r.2.mem ((c.tc : Thread nD τ).loc main_v5)
      = Cert.Spectrum.finish reducesTo_S16384_S_d0 h_S_ (rowsOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  (θ_run defs _ _).mono (fun r h c =>
    ⟨((h c).2 main_v5 (Pipeline.mem_restRefs_of main_v5 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelIdeal.RunValue

end
-- ==== Proof.LibKeepdims.lean ====
/-
  Reading the pieces of a softmax over a rank-3 array at an index, for any extents `a × b × c`.

  A softmax along an axis takes a maximum and a sum along that axis, puts the reduced axis back with extent one
  ("keepdims") and broadcasts it over the array again.  The lemmas here read each of those steps at an index written by
  its coordinates:

  * an `[a, b]` array cast to `[a, b, 1]` and an `[a, b, 1]` array broadcast to `[a, b, c]` (the last axis reduced);
  * an `[a, c]` array cast to `[a, 1, c]` and an `[a, 1, c]` array broadcast to `[a, b, c]` (the middle axis reduced);
  * the index over `(i, j)` with coordinate `k` inserted on the last axis is `(i, j, k)`, and over `(i, k)` with `j`
    inserted on the middle axis it is `(i, j, k)`;
  * hence, on the extended reals, a vector maximum along the last or the middle axis is the fold of `max` over that
    axis's coordinates, a vector sum the sum over them, and the host's maximum along the last axis the same fold.
-/
import Idealize.ShloMosaic.PureOps.Ideal.Laws
import Idealize.ShloMosaic.Lib.ValueIdx
import Idealize.ShloMosaic.Lib.Pipeline.Value

noncomputable section

namespace Idealize.ShloMosaic.Keepdims

open Idealize.ShloMosaic Idealize.ShloMosaic.ValueIdx

variable {α : Type} {a b c : ℕ}

/-! ## The reduced axis put back with extent one, and broadcast again -/

/-- An `[a, b]` array cast to `[a, b, 1]` reads, at `(i, j, u)`, the operand at `(i, j)`. -/
theorem shapeCast_ab_ab1_apply (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show 0 = if (1 : ℕ) = 1 then 0 else k.val
    rw [if_pos rfl]

/-- An `[a, c]` array cast to `[a, 1, c]` reads, at `(i, u, k)`, the operand at `(i, k)`. -/
theorem shapeCast_ac_a1c_apply (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]
  | ⟨2, _⟩ =>
    show k.val = if c = 1 then 0 else k.val
    split
    · have := k.isLt; omega
    · rfl

/-! ## The index with the reduced coordinate inserted -/

/-- Over `(i, j)`, with `k` inserted on the last axis: `(i, j, k)`. -/
theorem lift_last (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Over `(i, k)`, with `j` inserted on the middle axis: `(i, j, k)`. -/
theorem lift_middle (h : (⟨3, ![a, b, c]⟩ : Shape).Reduces [1] ⟨2, ![a, c]⟩) (i : Fin a) (j : Fin b) (k : Fin c) :
    h.lift (ix2 i k) j = ix3 i j k := by
  funext ax
  apply Fin.ext
  match ax with
  | ⟨0, _⟩ => rfl
  | ⟨1, _⟩ => rfl
  | ⟨2, _⟩ => rfl

/-! ## Maxima and sums along one axis, on the extended reals -/

variable {φ : FTy}

/-- A vector maximum along the last axis, at `(i, j)`: the fold of `max` from the accumulator's value over `k`. -/
theorem multiReduction_max_last (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) fun k => src (ix3 i j k) := by
  refine (Ideal.multiReduction_maximumf_single src acc h hφ hacc (ix2 i j)).trans ?_
  refine congrArg (Finset.fold max (Ideal.ofBits φ acc) · Finset.univ) (funext fun k => ?_)
  exact congrArg src (lift_last h i j k)

/-- A vector sum along the last axis, at `(i, j)`: the sum over `k`. -/
theorem multiReduction_add_last (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  exact Finset.sum_congr rfl fun k _ => congrArg src (lift_last h i j k)

/-- A vector maximum along the middle axis, at `(i, k)`: the fold of `max` from the accumulator's value over `j`. -/
theorem multiReduction_max_middle (src : FVec Ideal ⟨3, ![a, b, c]⟩ φ) (acc : BitVec φ.bits)
    (h : (⟨3, ![a, b, c]⟩ : Shape).Reduces [1] ⟨2, ![a, c]⟩) (hφ : FKind.Formats φ) (hacc : acc = FKind.maximumf.neutral φ hφ)
    (i : Fin a) (k : Fin c) :
    multiReduction .maximumf [1] ⟨2, ![a, c]⟩ src acc h hφ hacc (ix2 i k)
      = (Finset.univ : Finset (Fin b)).fold max (Ideal.ofBits φ acc) fun j => src (ix3 i j k) := by
  refine (Ideal.multiReduction_maximumf_single src acc h hφ hacc (ix2 i k)).trans ?_
  refine congrArg (Finset.fold max (Ideal.ofBits φ acc) · Finset.univ) (funext fun j => ?_)
  exact congrArg src (lift_middle h i j k)

/-- A vector sum along the middle axis, at `(i, k)`: the sum over `j`. -/
theorem multiReduction_add_middle (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) := by
  refine (Ideal.multiReduction_add_single src acc h hφ hacc (ix2 i k)).trans ?_
  exact Finset.sum_congr rfl fun j _ => congrArg src (lift_middle h i j k)

/-- The host's maximum along the last axis, at `(i, j)`: the fold of `max` from the initial value over `k`. -/
theorem hostReduce_max_last {u : Shape} (x : (⟨3, ![a, b, c]⟩ : Shape).Idx → Ideal φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.maximumf (F := Ideal) (φ := φ)) x init h' hu (ix2 i j)
      = (Finset.univ : Finset (Fin c)).fold max (init (Shape.Idx.first hu)) fun k => x (ix3 i j k) := by
  refine (Host.reduce_eq_fold_single (FloatOps.maximumf (F := Ideal) (φ := φ)) x init h' h hu (ix2 i j)).trans ?_
  refine congrArg (Finset.fold max (init (Shape.Idx.first hu)) · Finset.univ) (funext fun k => ?_)
  exact congrArg x (lift_last h i j k)

end Idealize.ShloMosaic.Keepdims

end
-- ==== Proof.BodyHist.lean ====
/-
  The kernel's histogram at an index.

  The body builds a row's histogram as a batched product of two one-hot matrices: for each row `r`, the 16 × 256 matrix
  whose entry `(h, p)` is the weight of peak `p` when `h` is the peak's bin shifted right by seven places (else zero),
  times the 256 × 128 matrix whose entry `(p, l)` is one when `l` is the bin's low seven bits (else zero).  Entry
  `(h, l)` of the product, accumulated into zero, is the sum over the peaks `p` of those two entries' product: the
  weight of the peaks whose bin is `128·h + l`, which is `Cert.Spectrum.cells`.
-/
import proofs.«131988_j54434415509810_2_alg».proof.Proof.Gen.KernelIdeal.Frame
import proofs.«131988_j54434415509810_2_alg».proof.Proof.Spec
import proofs.«131988_j54434415509810_2_alg».proof.Proof.LibKeepdims
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KernelIdeal.BodyValue

open Cert.KernelIdeal Cert.KernelIdeal.Gen Idealize.ShloMosaic Idealize.ShloMosaic.ValueIdx
open scoped BigOperators

/-- The product's dimension numbers: rows are a batch axis, the peaks are contracted. -/
abbrev D : DotDims S64x16x256 S64x256x128 S64x16x128 := dot_S64x16x256_S64x256x128_S64x16x128_2_1_1_2_0_0

/-! ## Where the product reads its operands -/

/-- The left operand's row is the result's row (the batch axis) … -/
theorem lhs_0 (i : S64x16x128.Idx) (q : D.contr.Idx) : (D.lhsIdx i q 0).val = (i 0).val := by
  unfold DotDims.lhsIdx
  rw [dif_pos (show (0 : Fin S64x16x256.rank) ∈ D.lhsBatch by decide)]
  rfl
/-- … its second coordinate the result's second (the free axis) … -/
theorem lhs_1 (i : S64x16x128.Idx) (q : D.contr.Idx) : (D.lhsIdx i q 1).val = (i 1).val := by
  unfold DotDims.lhsIdx
  rw [dif_neg (show ¬(1 : Fin S64x16x256.rank) ∈ D.lhsBatch by decide),
    dif_pos (show (1 : Fin S64x16x256.rank) ∈ D.lhsNonContracting by decide)]
  rfl
/-- … and its last the contracted peak. -/
theorem lhs_2 (i : S64x16x128.Idx) (q : D.contr.Idx) : (D.lhsIdx i q 2).val = (q ⟨0, by decide⟩).val :=
  D.lhsIdx_val_of_single rfl i q

/-- The right operand's row is the result's row … -/
theorem rhs_0 (i : S64x16x128.Idx) (q : D.contr.Idx) : (D.rhsIdx i q 0).val = (i 0).val := by
  unfold DotDims.rhsIdx
  rw [dif_pos (show (0 : Fin S64x256x128.rank) ∈ D.rhsBatch by decide)]
  rfl
/-- … its second coordinate the contracted peak … -/
theorem rhs_1 (i : S64x16x128.Idx) (q : D.contr.Idx) : (D.rhsIdx i q 1).val = (q ⟨0, by decide⟩).val :=
  D.rhsIdx_val_of_single rfl i q
/-- … and its last the result's last (the free axis). -/
theorem rhs_2 (i : S64x16x128.Idx) (q : D.contr.Idx) : (D.rhsIdx i q 2).val = (i 2).val := by
  unfold DotDims.rhsIdx
  rw [dif_neg (show ¬(2 : Fin S64x256x128.rank) ∈ D.rhsBatch by decide),
    dif_pos (show (2 : Fin S64x256x128.rank) ∈ D.rhsNonContracting by decide)]
  rfl

/-- At result entry `(r, h, l)` and peak `p` the left operand is read at `(r, h, p)` … -/
theorem lhsIdx_at (r : Fin 64) (h : Fin 16) (l : Fin 128) (p : Fin 256) :
    D.lhsIdx (ix3 r h l) ((contrEquiv1 D 256 rfl rfl).symm p) = ix3 r h p := by
  have hk := contrEquiv1_symm_val D 256 rfl rfl p
  refine funext fun a => Fin.ext ?_
  match a with
  | ⟨0, _⟩ => exact lhs_0 _ _
  | ⟨1, _⟩ => exact lhs_1 _ _
  | ⟨2, _⟩ => exact (lhs_2 _ _).trans hk
/-- … and the right one at `(r, p, l)`. -/
theorem rhsIdx_at (r : Fin 64) (h : Fin 16) (l : Fin 128) (p : Fin 256) :
    D.rhsIdx (ix3 r h l) ((contrEquiv1 D 256 rfl rfl).symm p) = ix3 r p l := by
  have hk := contrEquiv1_symm_val D 256 rfl rfl p
  refine funext fun a => Fin.ext ?_
  match a with
  | ⟨0, _⟩ => exact rhs_0 _ _
  | ⟨1, _⟩ => exact (rhs_1 _ _).trans hk
  | ⟨2, _⟩ => exact rhs_2 _ _

/-! ## The two one-hot factors at an index -/

/-- The left factor's indicator at `(r, h, p)`: one when `h` is peak `p`'s bin shifted right by seven places. -/
theorem hi_apply (β : IVec S64x256 32) (hi : S64x16x256.Iotas .tc 32 [1]) (hc : S64x256.ShapeCasts S64x1x256)
    (hb : S64x1x256.Broadcasts S64x16x256) (hlt : 1 < 32) (hbits : FTy.bits .bf16 < FTy.bits .f32)
    (r : Fin 64) (h : Fin 16) (p : Fin 256) :
    (truncf .bf16 (sitofp (F := Ideal) .f32 (extui 32 (cmpi .eq (iota .tc S64x16x256 32 [1] hi)
        (broadcastTo S64x16x256 (shapeCast S64x1x256 (shrsi β (broadcast S64x256 7#32)) hc) hb)) hlt)) hbits
      : FVec Ideal S64x16x256 .bf16) (ix3 r h p) = Cert.Spectrum.isHi h (β (ix2 r p)) := by
  show (((BitVec.setWidth 32 (IntOp.cmpi .eq (iota .tc S64x16x256 32 [1] hi (ix3 r h p))
      (broadcastTo S64x16x256 (shapeCast S64x1x256 (shrsi β (broadcast S64x256 7#32)) hc) hb (ix3 r h p)))).toInt : ℝ) : EReal) = _
  rw [iota_single_apply, Keepdims.broadcastTo_a1c_abc_apply, Keepdims.shapeCast_ac_a1c_apply]
  rfl

/-- The right factor at `(r, p, l)`: one when `l` is peak `p`'s bin's low seven bits. -/
theorem lo_apply (β : IVec S64x256 32) (hi : S64x256x128.Iotas .tc 32 [2]) (hc : S64x256.ShapeCasts S64x256x1)
    (hb : S64x256x1.Broadcasts S64x256x128) (hlt : 1 < 32) (hbits : FTy.bits .bf16 < FTy.bits .f32)
    (r : Fin 64) (p : Fin 256) (l : Fin 128) :
    (truncf .bf16 (sitofp (F := Ideal) .f32 (extui 32 (cmpi .eq (iota .tc S64x256x128 32 [2] hi)
        (broadcastTo S64x256x128 (shapeCast S64x256x1 (andi β (broadcast S64x256 127#32)) hc) hb)) hlt)) hbits
      : FVec Ideal S64x256x128 .bf16) (ix3 r p l) = Cert.Spectrum.isLo l (β (ix2 r p)) := by
  show (((BitVec.setWidth 32 (IntOp.cmpi .eq (iota .tc S64x256x128 32 [2] hi (ix3 r p l))
      (broadcastTo S64x256x128 (shapeCast S64x256x1 (andi β (broadcast S64x256 127#32)) hc) hb (ix3 r p l)))).toInt : ℝ) : EReal) = _
  rw [iota_single_apply, Keepdims.broadcastTo_ab1_abc_apply, Keepdims.shapeCast_ab_ab1_apply]
  rfl

/-- The weights, cast to one row per peak and repeated over the 16 values of `h`, at `(r, h, p)`: peak `p`'s weight. -/
theorem weight_apply (w : FVec Ideal S64x256 .bf16) (hc : S64x256.ShapeCasts S64x1x256)
    (hb : S64x1x256.Broadcasts S64x16x256) (r : Fin 64) (h : Fin 16) (p : Fin 256) :
    broadcastTo S64x16x256 (shapeCast S64x1x256 w hc) hb (ix3 r h p) = w (ix2 r p) := by
  rw [Keepdims.broadcastTo_a1c_abc_apply, Keepdims.shapeCast_ac_a1c_apply]

/-! ## The product of the two factors, accumulated into zero, is the 16 × 128 histogram -/

/-- For any bins `β` and weights `w`: entry `(r, h, l)` of the batched product is the sum over the peaks of row `r` of
    (indicator of `h`) · weight · (indicator of `l`). -/
theorem hist_apply (β : IVec S64x256 32) (w : FVec Ideal S64x256 .bf16)
    (hi1 : S64x16x256.Iotas .tc 32 [1]) (hc1 : S64x256.ShapeCasts S64x1x256) (hb1 : S64x1x256.Broadcasts S64x16x256)
    (hi2 : S64x256x128.Iotas .tc 32 [2]) (hc2 : S64x256.ShapeCasts S64x256x1) (hb2 : S64x256x1.Broadcasts S64x256x128)
    (hlt : 1 < 32) (hbits : FTy.bits .bf16 < FTy.bits .f32) (r : Fin 64) (h : Fin 16) (l : Fin 128) :
    matmul (F := Ideal) D none
      (mulf (truncf .bf16 (sitofp (F := Ideal) .f32 (extui 32 (cmpi .eq (iota .tc S64x16x256 32 [1] hi1)
          (broadcastTo S64x16x256 (shapeCast S64x1x256 (shrsi β (broadcast S64x256 7#32)) hc1) hb1)) hlt)) hbits)
        (broadcastTo S64x16x256 (shapeCast S64x1x256 w hc1) hb1))
      (truncf .bf16 (sitofp (F := Ideal) .f32 (extui 32 (cmpi .eq (iota .tc S64x256x128 32 [2] hi2)
          (broadcastTo S64x256x128 (shapeCast S64x256x1 (andi β (broadcast S64x256 127#32)) hc2) hb2)) hlt)) hbits)
      (constant (F := Ideal) S64x16x128 .f32 0x00000000#32) (ix3 r h l)
    = Cert.Spectrum.cells (fun p => β (ix2 r p)) (fun p => w (ix2 r p)) h l := by
  simp only [matmul]
  rw [Ideal.matmul_constant_zero_apply, ← Equiv.sum_comp (contrEquiv1 D 256 rfl rfl).symm]
  unfold Cert.Spectrum.cells
  refine Finset.sum_congr rfl fun p _ => ?_
  rw [lhsIdx_at, rhsIdx_at, mulf_apply, hi_apply, weight_apply, lo_apply]

/-- The predicted histogram: the first product of the body, at `(r, h, l)`, from the loaded blocks (`v0`, `v1` the two
    weight factors, `v8` the positions). -/
theorem pay3_apply (v0 v1 v8 : Vec Ideal S64x256 .f32) (r : Fin 64) (h : Fin 16) (l : Fin 128) :
    k0_pay3 (F := Ideal) v0 v1 v8 (ix3 r h l)
      = Cert.Spectrum.cells (fun p => Cert.Spectrum.bin (v8 (ix2 r p))) (fun p => v0 (ix2 r p) * v1 (ix2 r p)) h l := by
  unfold k0_pay3
  exact hist_apply _ _ _ _ _ _ _ _ _ _ r h l

/-- The target histogram: the second product, from the weights `v3 · v4` and the positions `v38`. -/
theorem pay5_apply (v3 v4 v38 : Vec Ideal S64x256 .f32) (r : Fin 64) (h : Fin 16) (l : Fin 128) :
    k0_pay5 (F := Ideal) (k0_pay2 v3 v4) v38 (k0_pay4 (F := Ideal)) (ix3 r h l)
      = Cert.Spectrum.cells (fun p => Cert.Spectrum.bin (v38 (ix2 r p))) (fun p => v3 (ix2 r p) * v4 (ix2 r p)) h l := by
  unfold k0_pay5 k0_pay2 k0_pay4
  exact hist_apply _ _ _ _ _ _ _ _ _ _ r h l

end Cert.KernelIdeal.BodyValue

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.BodyValue.lean ====
/-
  The kernel body's value at a row.

  From the two 16 × 128 histograms `a` (predicted) and `b` (target) of a row the body takes three sums over the cells —
  `∑ a·a`, `∑ b·b` and `∑ a·b`, each first along the 128 lanes, then along the 16 sublanes —, the two norms
  `√∑a·a`, `√∑b·b`, and from those the cosine `Cert.Spectrum.cosOf`.  With the histograms read as
  `Cert.Spectrum.cells` the stored value at row `r` is `Cert.Spectrum.rowCosCells` of the row's positions and weights.
-/
import proofs.«131988_j54434415509810_2_alg».proof.Proof.Gen.KernelIdeal.Frame
import proofs.«131988_j54434415509810_2_alg».proof.Proof.Spec
import proofs.«131988_j54434415509810_2_alg».proof.Proof.BodyHist
import proofs.«131988_j54434415509810_2_alg».proof.Proof.LibKeepdims
import proofs.«131988_j54434415509810_2_alg».proof.Proof.LibColumn
import Idealize.ShloMosaic.Lib.ValueIdx
import Idealize.ShloMosaic.Lib.Pipeline.Value
import Idealize.ShloMosaic.PureOps.Ideal
import Idealize.ShloMosaic.PureOps.Ideal.Laws

noncomputable section

namespace Cert.KernelIdeal.BodyValue

open Cert.KernelIdeal Cert.KernelIdeal.Gen Idealize.ShloMosaic Idealize.ShloMosaic.ValueIdx
open scoped BigOperators

/-! ## A sum over the 16 × 128 cells of a row -/

/-- The sum along the lanes, then along the sublanes, put back as a column: at row `r` the double sum over the cells. -/
theorem rowSum_apply (X : FVec Ideal S64x16x128 .f32) (h2 : S64x16x128.Reduces [2] S64x16) (h1 : S64x16.Reduces [1] S64)
    (hc : S64.ShapeCasts S64x1) (hφ : FKind.Formats .f32) (hacc : (0x00000000#32 : BitVec 32) = FKind.add.neutral .f32 hφ)
    (r : Fin 64) (u : Fin 1) :
    shapeCast S64x1 (multiReduction .add [1] S64 (multiReduction .add [2] S64x16 X 0x00000000#32 h2 hφ hacc)
        0x00000000#32 h1 hφ hacc) hc (ix2 r u)
      = ∑ h : Fin 16, ∑ l : Fin 128, X (ix3 r h l) := by
  refine (Cert.LibColumn.shapeCast_a_a1_apply _ hc r u).trans ?_
  refine (Cert.LibColumn.sum_last_apply _ h1 hφ hacc r).trans ?_
  refine Finset.sum_congr rfl fun h _ => ?_
  exact Keepdims.multiReduction_add_last X _ h2 hφ hacc r h

/-! ## The three sums and the two norms at a row -/

/-- The predicted norm: the square root of the sum of the histogram's squares. -/
theorem pay7_apply (P : FVec Ideal S64x16x128 .f32) (r : Fin 64) (u : Fin 1) :
    k0_pay7 (F := Ideal) P (ix2 r u) = Ideal.sqrt (∑ h : Fin 16, ∑ l : Fin 128, P (ix3 r h l) * P (ix3 r h l)) := by
  unfold k0_pay7
  exact congrArg Ideal.sqrt (rowSum_apply (mulf P P) _ _ _ _ _ r u)

/-- The target norm, of the second histogram. -/
theorem pay8_apply (v7 : FVec Ideal S64x256 .bf16) (v38 : Vec Ideal S64x256 .f32) (v39 : FVec Ideal S64x256 .f32)
    (r : Fin 64) (u : Fin 1) :
    k0_pay8 (F := Ideal) v7 v38 v39 (ix2 r u)
      = Ideal.sqrt (∑ h : Fin 16, ∑ l : Fin 128, k0_pay5 v7 v38 v39 (ix3 r h l) * k0_pay5 v7 v38 v39 (ix3 r h l)) := by
  unfold k0_pay8
  exact congrArg Ideal.sqrt (rowSum_apply (mulf (k0_pay5 v7 v38 v39) (k0_pay5 v7 v38 v39)) _ _ _ _ _ r u)

/-- The inner product of the two histograms. -/
theorem pay6_apply (v7 : FVec Ideal S64x256 .bf16) (P : FVec Ideal S64x16x128 .f32) (v38 : Vec Ideal S64x256 .f32)
    (v39 : FVec Ideal S64x256 .f32) (r : Fin 64) (u : Fin 1) :
    k0_pay6 (F := Ideal) v7 P v38 v39 (ix2 r u)
      = ∑ h : Fin 16, ∑ l : Fin 128, P (ix3 r h l) * k0_pay5 v7 v38 v39 (ix3 r h l) := by
  unfold k0_pay6
  exact rowSum_apply (mulf P (k0_pay5 v7 v38 v39)) _ _ _ _ _ r u

/-! ## The cosine from the three sums -/

/-- The product of the two norms, each plus `ε`, entry by entry. -/
theorem pay9_apply (v7 : FVec Ideal S64x256 .bf16) (P : FVec Ideal S64x16x128 .f32) (v38 : Vec Ideal S64x256 .f32)
    (v39 : FVec Ideal S64x256 .f32) (i : S64x1.Idx) :
    k0_pay9 (F := Ideal) v7 P v38 v39 i
      = (k0_pay7 P i + Cert.Spectrum.eps) * (k0_pay8 v7 v38 v39 i + Cert.Spectrum.eps) := rfl

/-- The stored value from the inner product `v79`, the norms `v80`, `v81` and the product `v86`, entry by entry. -/
theorem pay1_apply (v79 v80 v81 v86 : FVec Ideal S64x1 .f32) (i : S64x1.Idx) :
    k0_pay1 (F := Ideal) v79 v80 v81 v86 i
      = Ideal.div (Ideal.div (v79 i) (v86 i))
          (max (Ideal.div (v80 i) (v80 i + Cert.Spectrum.eps)) Cert.Spectrum.eps
            * max (Ideal.div (v81 i) (v81 i + Cert.Spectrum.eps)) Cert.Spectrum.eps) := rfl

/-- The stored value at row `r`, for any first histogram `P`: the cosine of `P` and the second histogram from their
    three sums over the cells. -/
theorem body_apply (v7 : FVec Ideal S64x256 .bf16) (P : FVec Ideal S64x16x128 .f32) (v38 : Vec Ideal S64x256 .f32)
    (v39 : FVec Ideal S64x256 .f32) (r : Fin 64) (u : Fin 1) :
    k0_pay1 (F := Ideal) (k0_pay6 v7 P v38 v39) (k0_pay7 P) (k0_pay8 v7 v38 v39) (k0_pay9 v7 P v38 v39) (ix2 r u)
      = Cert.Spectrum.cosOf (∑ h : Fin 16, ∑ l : Fin 128, P (ix3 r h l) * P (ix3 r h l))
          (∑ h : Fin 16, ∑ l : Fin 128, k0_pay5 v7 v38 v39 (ix3 r h l) * k0_pay5 v7 v38 v39 (ix3 r h l))
          (∑ h : Fin 16, ∑ l : Fin 128, P (ix3 r h l) * k0_pay5 v7 v38 v39 (ix3 r h l)) := by
  rw [pay1_apply, pay9_apply, pay6_apply, pay7_apply, pay8_apply]
  rfl

/-! ## The body's one store, at a row -/

/-- The whole-buffer rectangles sit at offset zero. -/
theorem hz : (![0, 0] : Fin 2 → Nat) = fun _ => 0 := funext fun a => by fin_cases a <;> rfl

/-- WHAT THE BODY STORES AT ROW `r`: the row's cosine through the 16 × 128 layout of the two histograms, from the six
    loaded blocks (`x0` the predicted positions, `x1 · x2` their weights, `x3` the target positions, `x4 · x5` their
    weights). -/
theorem out_row (x0 x1 x2 x3 x4 x5 : Vec Ideal S64x256 .f32) (r : Fin 64) :
    Gen.out0_6 (F := Ideal) x0 x1 x2 x3 x4 x5 (ix2 r 0) =
      Cert.Spectrum.rowCosCells (fun p => x0 (ix2 r p)) (fun p => x1 (ix2 r p) * x2 (ix2 r p))
        (fun p => x3 (ix2 r p)) (fun p => x4 (ix2 r p) * x5 (ix2 r p)) := by
  unfold Gen.out0_6
  rw [View.canon_unit_zero hz]
  simp only [View.ld_unit_zero (S := S64x256) hz]
  rw [body_apply]
  unfold Cert.Spectrum.rowCosCells
  simp only [pay3_apply, pay5_apply]

end Cert.KernelIdeal.BodyValue

end
-- ==== Proof.Normalize.lean ====
/-
  Dividing each histogram by its norm plus `ε` first, or dividing the three sums afterwards, gives the same cosine —
  when the histograms' entries are real numbers.

  With `A = ∑ a²`, `B = ∑ b²`, `C = ∑ a·b`, `c = √A + ε`, `d = √B + ε` (both positive, as `ε > 0`):
  `∑ (a/c)·(b/d) = C / (c·d)` and `√∑ (a/c)² = √(A / c²) = √A / c`.  On real entries every operation of the extended reals
  used here is the real one (a quotient by a nonzero real, a square root of a nonnegative real, a maximum, a finite
  sum), so both spellings are the coercion of one real number.  Finiteness is needed: the two identities move a factor
  across a sum and cancel it under a root, which fails at infinities.
-/
import proofs.«131988_j54434415509810_2_alg».proof.Proof.Spec
import Mathlib

noncomputable section

namespace Cert.Spectrum

open Idealize.ShloMosaic

/-- `ε` is the real `11258999 · 2⁻⁵⁰` (about `10⁻⁸`). -/
theorem eps_eq : eps = ((11258999 * (2 : ℝ) ^ (-50 : ℤ) : ℝ) : EReal) := by
  simp [eps, Ideal.ofBits, Ideal.ieee, -EReal.coe_mul]

/-- `ε` is a positive real. -/
theorem eps_real : ∃ e : ℝ, 0 < e ∧ eps = (e : EReal) :=
  ⟨11258999 * (2 : ℝ) ^ (-50 : ℤ), by positivity, eps_eq⟩

/-- A finite sum of real numbers, read in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of two reals, read in the extended reals. -/
theorem coe_max (x y : ℝ) : max (x : EReal) (y : EReal) = ((max x y : ℝ) : EReal) :=
  (EReal.coe_strictMono.monotone.map_max).symm

/-- A quotient of reals by a nonzero real is the real quotient. -/
theorem div_coe_coe (x : ℝ) {y : ℝ} (hy : y ≠ 0) : Ideal.div (x : EReal) (y : EReal) = ((x / y : ℝ) : EReal) := by
  rw [Ideal.div_coe hy, ← EReal.coe_mul, mul_one_div]

/-- The square root of a nonnegative real is the real square root. -/
theorem sqrt_coe_nonneg {x : ℝ} (hx : 0 ≤ x) : Ideal.sqrt (x : EReal) = ((Real.sqrt x : ℝ) : EReal) := by
  rw [Ideal.sqrt_coe, if_neg (not_lt.mpr hx)]

/-- The two identities over the reals: a common positive factor leaves a sum of products, and comes out of a root. -/
theorem real_cos {n : ℕ} (a b : Fin n → ℝ) (e : ℝ) (he : 0 < e) :
    (∑ j, a j / (Real.sqrt (∑ k, a k * a k) + e) * (b j / (Real.sqrt (∑ k, b k * b k) + e)))
      / (max (Real.sqrt (∑ j, a j / (Real.sqrt (∑ k, a k * a k) + e) * (a j / (Real.sqrt (∑ k, a k * a k) + e)))) e
         * max (Real.sqrt (∑ j, b j / (Real.sqrt (∑ k, b k * b k) + e) * (b j / (Real.sqrt (∑ k, b k * b k) + e)))) e)
    = (∑ j, a j * b j) / ((Real.sqrt (∑ k, a k * a k) + e) * (Real.sqrt (∑ k, b k * b k) + e))
      / (max (Real.sqrt (∑ k, a k * a k) / (Real.sqrt (∑ k, a k * a k) + e)) e
         * max (Real.sqrt (∑ k, b k * b k) / (Real.sqrt (∑ k, b k * b k) + e)) e) := by
  have hroot : ∀ (x : Fin n → ℝ) (s : ℝ), 0 < s →
      Real.sqrt (∑ j, x j / s * (x j / s)) = Real.sqrt (∑ k, x k * x k) / s := by
    intro x s hs
    have hsum : ∑ j, x j / s * (x j / s) = (∑ k, x k * x k) / (s * s) := by
      rw [Finset.sum_div]; exact Finset.sum_congr rfl fun j _ => by rw [div_mul_div_comm]
    rw [hsum, Real.sqrt_div' _ (mul_self_nonneg s), Real.sqrt_mul_self hs.le]
  have hcpos : 0 < Real.sqrt (∑ k, a k * a k) + e := add_pos_of_nonneg_of_pos (Real.sqrt_nonneg _) he
  have hdpos : 0 < Real.sqrt (∑ k, b k * b k) + e := add_pos_of_nonneg_of_pos (Real.sqrt_nonneg _) he
  have hdot : ∑ j, a j / (Real.sqrt (∑ k, a k * a k) + e) * (b j / (Real.sqrt (∑ k, b k * b k) + e))
      = (∑ j, a j * b j) / ((Real.sqrt (∑ k, a k * a k) + e) * (Real.sqrt (∑ k, b k * b k) + e)) := by
    rw [Finset.sum_div]; exact Finset.sum_congr rfl fun j _ => by rw [div_mul_div_comm]
  rw [hdot, hroot a _ hcpos, hroot b _ hdpos]

/-- On real entries, the cosine of the normalized histograms is the cosine from the three sums. -/
theorem cosNormalized_coe (a b : Fin 2000 → ℝ) :
    cosNormalized (fun j => (a j : EReal)) (fun j => (b j : EReal))
      = cosOf ((∑ j, a j * a j : ℝ) : EReal) ((∑ j, b j * b j : ℝ) : EReal) ((∑ j, a j * b j : ℝ) : EReal) := by
  obtain ⟨e, he, hE⟩ := eps_real
  have hA : 0 ≤ ∑ k, a k * a k := Finset.sum_nonneg fun k _ => mul_self_nonneg _
  have hB : 0 ≤ ∑ k, b k * b k := Finset.sum_nonneg fun k _ => mul_self_nonneg _
  have hcpos : 0 < Real.sqrt (∑ k, a k * a k) + e := add_pos_of_nonneg_of_pos (Real.sqrt_nonneg _) he
  have hdpos : 0 < Real.sqrt (∑ k, b k * b k) + e := add_pos_of_nonneg_of_pos (Real.sqrt_nonneg _) he
  have hA' : 0 ≤ ∑ j, a j / (Real.sqrt (∑ k, a k * a k) + e) * (a j / (Real.sqrt (∑ k, a k * a k) + e)) :=
    Finset.sum_nonneg fun k _ => mul_self_nonneg _
  have hB' : 0 ≤ ∑ j, b j / (Real.sqrt (∑ k, b k * b k) + e) * (b j / (Real.sqrt (∑ k, b k * b k) + e)) :=
    Finset.sum_nonneg fun k _ => mul_self_nonneg _
  have hm1 : max (Real.sqrt (∑ j, a j / (Real.sqrt (∑ k, a k * a k) + e) * (a j / (Real.sqrt (∑ k, a k * a k) + e)))) e
      * max (Real.sqrt (∑ j, b j / (Real.sqrt (∑ k, b k * b k) + e) * (b j / (Real.sqrt (∑ k, b k * b k) + e)))) e ≠ 0 :=
    (mul_pos (lt_max_of_lt_right he) (lt_max_of_lt_right he)).ne'
  have hm2 : max (Real.sqrt (∑ k, a k * a k) / (Real.sqrt (∑ k, a k * a k) + e)) e
      * max (Real.sqrt (∑ k, b k * b k) / (Real.sqrt (∑ k, b k * b k) + e)) e ≠ 0 :=
    (mul_pos (lt_max_of_lt_right he) (lt_max_of_lt_right he)).ne'
  have hcd : (Real.sqrt (∑ k, a k * a k) + e) * (Real.sqrt (∑ k, b k * b k) + e) ≠ 0 := (mul_pos hcpos hdpos).ne'
  unfold cosNormalized cosOf
  rw [hE]
  simp only [← EReal.coe_mul, coe_sum, sqrt_coe_nonneg hA, sqrt_coe_nonneg hB, ← EReal.coe_add,
    div_coe_coe _ hcpos.ne', div_coe_coe _ hdpos.ne', sqrt_coe_nonneg hA', sqrt_coe_nonneg hB', coe_max,
    div_coe_coe _ hm1, div_coe_coe _ hm2, div_coe_coe _ hcd]
  rw [real_cos a b e he]

/-- A histogram of real weights has real entries. -/
theorem hist_coe (β : Fin 256 → BitVec 32) (w : Fin 256 → ℝ) (j : Fin 2000) :
    hist β (fun p => (w p : EReal)) j = ((∑ p : Fin 256, if (β p).toNat = j.val then w p else 0 : ℝ) : EReal) := by
  unfold hist
  rw [← coe_sum]
  refine Finset.sum_congr rfl fun p _ => ?_
  split_ifs <;> simp

/-- With real weights, the row through normalized histograms is the specification's row. -/
theorem rowCosNormalized_eq (posA posB : Fin 256 → EReal) (wA wB : Fin 256 → ℝ) :
    rowCosNormalized posA (fun p => (wA p : EReal)) posB (fun p => (wB p : EReal))
      = rowCos posA (fun p => (wA p : EReal)) posB (fun p => (wB p : EReal)) := by
  unfold rowCosNormalized rowCos
  have ea := funext fun j => hist_coe (fun p => bin (posA p)) wA j
  have eb := funext fun j => hist_coe (fun p => bin (posB p)) wB j
  rw [ea, eb, cosNormalized_coe]
  simp only [← EReal.coe_mul, coe_sum]

end Cert.Spectrum

end
-- ==== Proof.LibBlockSum.lean ====
/-
  Regrouping a finite sum into consecutive blocks, in any commutative additive monoid (no cancellation and no
  finiteness is used, so it holds on the extended reals): a sum over `n * k` consecutive indices is the sum over the
  `n` blocks of the sums over the `k` places inside a block, place `e` of block `s` being index `e + k * s`.
-/
import Mathlib

namespace Cert.Lib.BlockSum

/-- Place `e` of block `s`, as an index below `n * k`: the natural `e + k * s`. -/
theorem place_val (n k : ℕ) (s : Fin n) (e : Fin k) : (finProdFinEquiv (s, e) : Fin (n * k)).val = e.val + k * s.val := rfl

/-- A sum over `Fin (n * k)` read block by block. -/
theorem sum_fin_mul_fin {M : Type*} [AddCommMonoid M] (n k : ℕ) (f : Fin (n * k) → M) :
    ∑ i : Fin (n * k), f i = ∑ s : Fin n, ∑ e : Fin k, f (finProdFinEquiv (s, e)) := by
  rw [← Fintype.sum_prod_type']
  exact (Equiv.sum_comp finProdFinEquiv f).symm

/-- The same with the summand a function of the natural under the index. -/
theorem sum_fin_mul {M : Type*} [AddCommMonoid M] (n k : ℕ) (f : ℕ → M) :
    ∑ i : Fin (n * k), f i.val = ∑ s : Fin n, ∑ e : Fin k, f (e.val + k * s.val) :=
  sum_fin_mul_fin n k fun i => f i.val

end Cert.Lib.BlockSum
-- ==== Proof.Bins.lean ====
/-
  The 16 × 128 layout of a histogram is the histogram over the flat bins.

  A bin `β` lies in 0 … 1999, so it is `128·(β / 128) + β % 128` with quotient below 16; shifting right by seven places
  gives the quotient and masking with 127 the remainder.  Hence cell `(h, l)` collects exactly the peaks of bin
  `128·h + l`, the cells with `128·h + l ≥ 2000` are empty, and a sum of products of cells over the 16 × 128 layout is the
  same sum over the 2000 bins.  Nothing here needs finiteness: only `1·w = w`, `0·w = 0` and the commutative monoid laws
  of addition, which hold for every extended real.
-/
import proofs.«131988_j54434415509810_2_alg».proof.Proof.Spec
import proofs.«131988_j54434415509810_2_alg».proof.Proof.LibBlockSum
import Mathlib

noncomputable section

namespace Cert.Spectrum

open Idealize.ShloMosaic

/-- A bin lies in 0 … 1999: the larger of 0 and a word read signed, then the smaller of that and 1999. -/
theorem bin_le (x : EReal) : (bin x).toNat ≤ 1999 := by
  unfold bin IntOp.minsi IntOp.maxsi
  generalize Ideal.fptosi 32 (x * scale) = y
  have hy := BitVec.toInt_eq_toNat_cond y
  have hlt := y.isLt
  split_ifs with h1 h2 h2
  · decide
  · decide
  · decide
  · simp only [BitVec.slt, decide_eq_true_eq, not_lt] at h1 h2
    have e0 : (0#32 : BitVec 32).toInt = 0 := by decide
    have e1 : (1999#32 : BitVec 32).toInt = 1999 := by decide
    rw [e0] at h1; rw [e1] at h2
    split_ifs at hy <;> omega

/-- Comparing two small naturals as 32-bit words, widened and read as an integer, is 1 when they are equal and 0 otherwise. -/
theorem cmp_eq (a b : ℕ) (ha : a < 2^32) (hb : b < 2^32) :
    (BitVec.setWidth 32 (IntOp.cmpi .eq (BitVec.ofNat 32 a) (BitVec.ofNat 32 b))).toInt = if b = a then 1 else 0 := by
  unfold IntOp.cmpi
  by_cases h : b = a
  · subst h; simp
  · rw [if_neg h]
    have hne : (BitVec.ofNat 32 a == BitVec.ofNat 32 b) = false := by
      rw [beq_eq_false_iff_ne]
      intro e
      have := congrArg BitVec.toNat e
      rw [BitVec.toNat_ofNat, BitVec.toNat_ofNat, Nat.mod_eq_of_lt ha, Nat.mod_eq_of_lt hb] at this
      exact h this.symm
    simp [hne]

/-- Shifting a bin right by seven places (arithmetically: its sign bit is clear) is its quotient by 128. -/
theorem shr7 (β : BitVec 32) (hβ : β.toNat ≤ 1999) : IntOp.shrsi .vector β 7#32 = BitVec.ofNat 32 (β.toNat / 128) := by
  have hmsb : β.msb = false := by rw [BitVec.msb_eq_false_iff_two_mul_lt]; omega
  have h7 : (7#32 : BitVec 32).toNat = 7 := by decide
  unfold IntOp.shrsi
  rw [if_pos (by rw [h7]; decide)]
  apply BitVec.eq_of_toNat_eq
  rw [BitVec.sshiftRight_eq', h7, BitVec.sshiftRight_eq_of_msb_false hmsb, BitVec.toNat_ushiftRight,
    Nat.shiftRight_eq_div_pow, BitVec.toNat_ofNat]
  omega

/-- Masking a word with 127 is its remainder by 128. -/
theorem and127 (β : BitVec 32) : IntOp.andi β 127#32 = BitVec.ofNat 32 (β.toNat % 128) := by
  unfold IntOp.andi
  apply BitVec.eq_of_toNat_eq
  have h127 : (127#32 : BitVec 32).toNat = 2 ^ 7 - 1 := by decide
  rw [BitVec.toNat_and, h127, Nat.and_two_pow_sub_one_eq_mod, BitVec.toNat_ofNat]
  omega

/-- The first one-hot factor tests `β / 128 = h`. -/
theorem isHi_eq (h : Fin 16) (β : BitVec 32) (hβ : β.toNat ≤ 1999) :
    isHi h β = if β.toNat / 128 = h.val then 1 else 0 := by
  unfold isHi
  rw [shr7 β hβ, cmp_eq h.val (β.toNat / 128) (by omega) (by omega)]
  split_ifs <;> simp

/-- The second one-hot factor tests `β % 128 = l`. -/
theorem isLo_eq (l : Fin 128) (β : BitVec 32) :
    isLo l β = if β.toNat % 128 = l.val then 1 else 0 := by
  unfold isLo
  rw [and127 β, cmp_eq l.val (β.toNat % 128) (by omega) (by omega)]
  split_ifs <;> simp

/-- The histogram with the bin a natural number. -/
def histN (β : Fin 256 → BitVec 32) (w : Fin 256 → EReal) (j : ℕ) : EReal :=
  ∑ p : Fin 256, if (β p).toNat = j then w p else 0

/-- Cell `(h, l)` is bin `128·h + l` of the histogram: `β / 128 = h` and `β % 128 = l` together say `β = 128·h + l`. -/
theorem cells_eq (β : Fin 256 → BitVec 32) (hβ : ∀ p, (β p).toNat ≤ 1999) (w : Fin 256 → EReal) (h : Fin 16) (l : Fin 128) :
    cells β w h l = histN β w (l.val + 128 * h.val) := by
  unfold cells histN
  refine Finset.sum_congr rfl fun p _ => ?_
  rw [isHi_eq h (β p) (hβ p), isLo_eq l (β p)]
  have hl := l.isLt
  have hh := h.isLt
  by_cases c : (β p).toNat = l.val + 128 * h.val
  · rw [if_pos c, if_pos (by omega), if_pos (by omega), one_mul, mul_one]
  · rw [if_neg c]
    by_cases c1 : (β p).toNat / 128 = h.val
    · rw [if_pos c1, if_neg (by omega), mul_zero]
    · rw [if_neg c1, zero_mul, zero_mul]

/-- No peak falls in a bin numbered 2000 or more. -/
theorem histN_zero (β : Fin 256 → BitVec 32) (hβ : ∀ p, (β p).toNat ≤ 1999) (w : Fin 256 → EReal) (j : ℕ) (hj : 2000 ≤ j) :
    histN β w j = 0 := by
  unfold histN
  exact Finset.sum_eq_zero fun p _ => if_neg (by have := hβ p; omega)

/-- A sum of products of cells over the 16 × 128 layout is the sum over the 2000 bins: the layout enumerates the bins
    0 … 2047 block by block, and the last 48 are empty. -/
theorem sum_cells (β β' : Fin 256 → BitVec 32) (hβ : ∀ p, (β p).toNat ≤ 1999) (hβ' : ∀ p, (β' p).toNat ≤ 1999)
    (w w' : Fin 256 → EReal) :
    ∑ h : Fin 16, ∑ l : Fin 128, cells β w h l * cells β' w' h l = ∑ j : Fin 2000, hist β w j * hist β' w' j := by
  have key := Cert.Lib.BlockSum.sum_fin_mul (M := EReal) 16 128 (fun j => histN β w j * histN β' w' j)
  have e1 : ∑ h : Fin 16, ∑ l : Fin 128, cells β w h l * cells β' w' h l
      = ∑ i : Fin (16 * 128), histN β w i.val * histN β' w' i.val := by
    rw [key]
    refine Finset.sum_congr rfl fun h _ => Finset.sum_congr rfl fun l _ => ?_
    rw [cells_eq β hβ, cells_eq β' hβ']
  have e2 : ∑ j : Fin 2000, hist β w j * hist β' w' j = ∑ j ∈ Finset.range 2000, histN β w j * histN β' w' j :=
    Fin.sum_univ_eq_sum_range (fun j => histN β w j * histN β' w' j) 2000
  rw [e1, e2, Fin.sum_univ_eq_sum_range (fun j => histN β w j * histN β' w' j) (16 * 128),
    show (16 * 128 : ℕ) = 2000 + 48 from rfl, Finset.sum_range_add]
  rw [Finset.sum_eq_zero (s := Finset.range 48) fun x _ => by rw [histN_zero β hβ w (2000 + x) (by omega), zero_mul], add_zero]

/-- The row's cosine through the 16 × 128 layout is the specification's. -/
theorem rowCosCells_eq (posA wA posB wB : Fin 256 → EReal) : rowCosCells posA wA posB wB = rowCos posA wA posB wB := by
  unfold rowCosCells rowCos
  rw [sum_cells (fun p => bin (posA p)) (fun p => bin (posA p)) (fun p => bin_le _) (fun p => bin_le _) wA wA,
    sum_cells (fun p => bin (posB p)) (fun p => bin (posB p)) (fun p => bin_le _) (fun p => bin_le _) wB wB,
    sum_cells (fun p => bin (posA p)) (fun p => bin (posB p)) (fun p => bin_le _) (fun p => bin_le _) wA wB]

end Cert.Spectrum

end
-- ==== Proof.Rows.lean ====
/-
  From the reference's own arithmetic to the specification.

  The reference normalizes each row's two histograms before taking their cosine; the specification takes the cosine from
  the three sums.  Row by row these agree as soon as the row's weights are real numbers (`Normalize.lean`): a weight is a
  product of two argument entries, so it is real when the four weight arrays are finite.  The positions need no
  finiteness: a bin is defined for every extended real.
-/
import proofs.«131988_j54434415509810_2_alg».proof.Proof.Spec
import proofs.«131988_j54434415509810_2_alg».proof.Proof.Normalize
import proofs.«131988_j54434415509810_2_alg».proof.Proof.Bins

noncomputable section

namespace Cert.Spectrum

open Idealize.ShloMosaic

/-- With finite weight arrays, the rows through normalized histograms give the specification's result. -/
theorem result_of_normalized (hred : Rows.ReducesTo [0] Scalar0) (hpos : 0 < Scalar0.numel)
    (x0 x1 x2 x3 x4 x5 : Peaks.Idx → EReal)
    (h1 : ∀ i, ∃ r : ℝ, x1 i = (r : EReal)) (h2 : ∀ i, ∃ r : ℝ, x2 i = (r : EReal))
    (h4 : ∀ i, ∃ r : ℝ, x4 i = (r : EReal)) (h5 : ∀ i, ∃ r : ℝ, x5 i = (r : EReal)) :
    finish hred hpos (fun b => rowCosNormalized (rowOf x0 (b 0)) (weightOf x1 x2 (b 0)) (rowOf x3 (b 0)) (weightOf x4 x5 (b 0)))
      = result hred hpos x0 x1 x2 x3 x4 x5 := by
  choose r1 hr1 using h1
  choose r2 hr2 using h2
  choose r4 hr4 using h4
  choose r5 hr5 using h5
  unfold result
  refine congrArg (finish hred hpos) (funext fun b => ?_)
  have ea : weightOf x1 x2 (b 0) = fun p => ((r1 (ValueIdx.ix2 (b 0) p) * r2 (ValueIdx.ix2 (b 0) p) : ℝ) : EReal) := by
    funext p; unfold weightOf; rw [hr1, hr2, EReal.coe_mul]
  have eb : weightOf x4 x5 (b 0) = fun p => ((r4 (ValueIdx.ix2 (b 0) p) * r5 (ValueIdx.ix2 (b 0) p) : ℝ) : EReal) := by
    funext p; unfold weightOf; rw [hr4, hr5, EReal.coe_mul]
  rw [ea, eb, rowCosNormalized_eq]

/-- The rows through the 16 × 128 layout give the specification's result (no finiteness needed). -/
theorem result_of_cells (hred : Rows.ReducesTo [0] Scalar0) (hpos : 0 < Scalar0.numel)
    (x0 x1 x2 x3 x4 x5 : Peaks.Idx → EReal) :
    finish hred hpos (fun b => rowCosCells (rowOf x0 (b 0)) (weightOf x1 x2 (b 0)) (rowOf x3 (b 0)) (weightOf x4 x5 (b 0)))
      = result hred hpos x0 x1 x2 x3 x4 x5 := by
  unfold result
  exact congrArg (finish hred hpos) (funext fun b => rowCosCells_eq _ _ _ _)

end Cert.Spectrum

end
-- ==== Proof.KernelRows.lean ====
/-
  The kernel's rows are the specification's rows.

  The run leaves at row `r` of the output the body's result for the six blocks of grid point `r / 64`, at the block's
  row `r % 64`.  A block's row `r % 64` is the array's row `64·(r / 64) + r % 64 = r`, so the body's row value — the cosine
  through the 16 × 128 layout of that row's two histograms — is the specification's row (`Bins.lean`).
-/
import proofs.«131988_j54434415509810_2_alg».proof.Proof.KernelRun
import proofs.«131988_j54434415509810_2_alg».proof.Proof.BodyValue
import proofs.«131988_j54434415509810_2_alg».proof.Proof.Rows

noncomputable section

namespace Cert.KernelIdeal.RowsValue

open Cert.KernelIdeal Cert.KernelIdeal.Gen Idealize.ShloMosaic Idealize.ShloMosaic.ValueIdx Cert.Spectrum

/-- Row `r % 64` of the block of point `r / 64` is row `r` of the array. -/
theorem blockOf_row (x : S16384x256.Idx → EReal) (r : Fin 16384) (p : Fin 256) :
    RunValue.blockOf x (RunValue.ptOf r) (ix2 (RunValue.inOf r) p) = x (ix2 r p) := by
  unfold RunValue.blockOf
  refine congrArg x (funext fun a => ?_)
  match a with
  | ⟨0, _⟩ => exact Fin.ext (by show 64 * (r.val / 64) + r.val % 64 = r.val; omega)
  | ⟨1, _⟩ => exact Fin.ext rfl

/-- The vector of rows the host's reduction adds up is the vector of the rows' cosines through the 16 × 128 layout. -/
theorem rowsOut_eq (x0 x1 x2 x3 x4 x5 : S16384x256.Idx → EReal) :
    RunValue.rowsOut x0 x1 x2 x3 x4 x5
      = fun b => rowCosCells (rowOf x0 (b 0)) (weightOf x1 x2 (b 0)) (rowOf x3 (b 0)) (weightOf x4 x5 (b 0)) := by
  funext b
  unfold RunValue.rowsOut RunValue.rowOut
  rw [BodyValue.out_row]
  simp only [blockOf_row]
  rfl

/-- The kernel's result is the specification's. -/
theorem kernel_result (hred : Rows.ReducesTo [0] Scalar0) (hpos : 0 < Scalar0.numel)
    (x0 x1 x2 x3 x4 x5 : S16384x256.Idx → EReal) :
    finish hred hpos (RunValue.rowsOut x0 x1 x2 x3 x4 x5) = result hred hpos x0 x1 x2 x3 x4 x5 := by
  rw [rowsOut_eq]
  exact result_of_cells hred hpos x0 x1 x2 x3 x4 x5

end Cert.KernelIdeal.RowsValue

end
-- ==== Proof.RefBin.lean ====
/-
  Small facts about one peak's bin: the float word 0x3F800000 is one, so dividing by it changes nothing; a bin lies in
  0 … 1999; and the flat histogram cell of a peak, its bin plus 2000 times its row as 32-bit words, is that number
  without wrapping.
-/
import proofs.«131988_j54434415509810_2_alg».proof.Proof.Spec

noncomputable section

namespace Cert.ReferenceIdeal.RefValue

open Idealize.ShloMosaic Cert.Spectrum

/-- The word `0x3F800000` denotes the real number one. -/
theorem ofBits_one_f32 : Ideal.ofBits .f32 0x3F800000#32 = 1 := by
  simp [Ideal.ofBits, Ideal.ieee]
  rw [← EReal.coe_mul]; norm_num

/-- Dividing an extended real by that one leaves it unchanged. -/
theorem div_ofBits_one (y : EReal) : Ideal.div y (Ideal.ofBits .f32 0x3F800000#32) = y := by
  rw [ofBits_one_f32]
  have h1 : (1 : EReal) = ((1 : ℝ) : EReal) := rfl
  rw [h1, Ideal.div_coe one_ne_zero]
  simp

/-- Clamping a word between 0 and 1999 (signed) leaves it between 0 and 1999. -/
theorem clamp_range (v : BitVec 32) :
    0 ≤ (IntOp.minsi 1999#32 (IntOp.maxsi 0#32 v)).toInt ∧ (IntOp.minsi 1999#32 (IntOp.maxsi 0#32 v)).toInt ≤ 1999 := by
  unfold IntOp.minsi IntOp.maxsi
  have h0 : (0#32).toInt = 0 := by decide
  have h1 : (1999#32).toInt = 1999 := by decide
  simp only [BitVec.slt, decide_eq_true_eq]
  split_ifs with ha hb hb <;> constructor <;> omega

/-- A bin lies in 0 … 1999. -/
theorem bin_range (x : EReal) : 0 ≤ (bin x).toInt ∧ (bin x).toInt ≤ 1999 := clamp_range _

end Cert.ReferenceIdeal.RefValue

end
-- ==== Proof.RefScatter.lean ====
/-
  The accumulating scatter of the reference, read at one histogram cell.

  The scatter adds update `f` (one per peak, `f = 256·b' + p` the flat peak number) to the operand element whose flat
  position is the start index of `f` read as a signed 32-bit word; an update whose start index falls outside the operand
  adds nothing.  When every start index is "bin plus 2000 times the row" with the bin in 0 … 1999, the updates that land
  on cell `2000·b + k` are exactly the peaks `p` of row `b` whose bin is `k`: the sum over the 4194304 updates collapses
  to a sum over the 256 peaks of one row.
-/
import proofs.«131988_j54434415509810_2_alg».proof.Proof.Gen.ReferenceIdeal
import Idealize.ShloMosaic.Lib.ValueIdx
import Idealize.ShloMosaic.PureOps.Ideal

noncomputable section

namespace Cert.ReferenceIdeal.RefValue

open Cert.ReferenceIdeal Cert.ReferenceIdeal.Gen Idealize.ShloMosaic Idealize.ShloMosaic.ValueIdx

/-- The scatter's dimension numbers: one start index per update, no window axes. -/
abbrev dS := scatter_S32768000_S4194304x1_S4194304_n_0_0_1

/-- With no window axis the window coordinate is zero. -/
theorem window_eq (j : S4194304.Idx) (a : Fin 1) : dS.window j a = 0 := by
  unfold ScatterDims.window
  rw [dif_neg]
  have : a = 0 := Subsingleton.elim _ _
  subst this; decide

/-- The start index of update `j` is read at row `j` of the index array, column 0. -/
theorem siIdx_eq (j : S4194304.Idx) (c : Fin dS.scatterDimsToOperandDims.length) :
    dS.siIdx j c = ix2 (j 0) (0 : Fin 1) := by
  funext b
  match b with
  | ⟨0, _⟩ =>
    unfold ScatterDims.siIdx
    rw [dif_neg (by show ¬ (0 : Nat) = 1; omega)]
    rfl
  | ⟨1, _⟩ =>
    unfold ScatterDims.siIdx
    rw [dif_pos (by rfl)]
    apply Fin.ext
    have := c.isLt
    show c.val = 0
    have h : dS.scatterDimsToOperandDims.length = 1 := rfl
    omega

/-- The start of update `j` on the operand's one axis: the index word read signed. -/
theorem start_eq (j : S4194304.Idx) (idx : IVec S4194304x1 32) (a : Fin 1) :
    dS.start j idx a = (idx (ix2 (j 0) (0 : Fin 1))).toInt := by
  unfold ScatterDims.start
  rw [dif_pos (by
    have : a = 0 := Subsingleton.elim _ _
    subst this; decide)]
  rw [siIdx_eq]
  rfl

/-- Update `j` lands on element `i` exactly when its start index, read signed, is `i`'s position. -/
theorem resultIdx_iff (j : S4194304.Idx) (idx : IVec S4194304x1 32) (i : S32768000.Idx) :
    dS.resultIdx? j idx = some i ↔ (idx (ix2 (j 0) (0 : Fin 1))).toInt = ((i 0).val : Int) := by
  have hi : (i 0).val < 32768000 := (i 0).isLt
  unfold ScatterDims.resultIdx?
  simp only [start_eq, window_eq]
  split_ifs with h
  · constructor
    · intro hs
      have h1 := congrArg Fin.val (congrFun (Option.some.inj hs) 0)
      have h2 := h 0
      simp only [Nat.cast_zero, add_zero] at h1 h2
      omega
    · intro he
      congr 1
      funext a
      have ha : a = 0 := Subsingleton.elim _ _
      subst ha
      apply Fin.ext
      simp only [Nat.cast_zero, add_zero]
      omega
  · constructor
    · intro hs; cases hs
    · intro he
      exfalso; apply h; intro a
      simp only [Nat.cast_zero, add_zero]
      have ha : a = 0 := Subsingleton.elim _ _
      subst ha
      show 0 ≤ _ ∧ _ < ((32768000 : Nat) : Int)
      rw [he]; omega

/-- The flat peak number `256·b + p` as an index of the flat arrays, and back. -/
def flatEquiv : Fin 16384 × Fin 256 ≃ S4194304.Idx where
  toFun q := ix1 (⟨q.1.val * 256 + q.2.val, by have := q.1.isLt; have := q.2.isLt; omega⟩ : Fin 4194304)
  invFun j := (⟨(j 0).val / 256, by have h : (j 0).val < 4194304 := (j 0).isLt; omega⟩,
               ⟨(j 0).val % 256, by omega⟩)
  left_inv q := by
    have := q.1.isLt; have := q.2.isLt
    apply Prod.ext <;> apply Fin.ext <;> simp only [ix1] <;> omega
  right_inv j := by
    funext a
    have ha : a = 0 := Subsingleton.elim _ _
    subst ha
    apply Fin.ext
    have h : (j 0).val < 4194304 := (j 0).isLt
    show (j 0).val / 256 * 256 + (j 0).val % 256 = (j 0).val
    omega

/-- A bin plus 2000 times the row, as 32-bit words, does not wrap. -/
theorem toInt_cell (β : BitVec 32) (hβ : 0 ≤ β.toInt ∧ β.toInt ≤ 1999) (b : Fin 16384) :
    (β + BitVec.ofNat 32 b.val * 2000#32).toInt = 2000 * (b.val : Int) + β.toInt := by
  have hb := b.isLt
  have hlt := β.isLt
  have h1 := BitVec.toInt_eq_toNat_cond β
  rw [BitVec.toInt_eq_toNat_cond] at hβ ⊢
  rw [h1]
  simp only [BitVec.toNat_add, BitVec.toNat_mul, BitVec.toNat_ofNat]
  split_ifs at hβ ⊢ <;> omega

/-- A word in 0 … 1999 read signed is the word read unsigned. -/
theorem toNat_of_range (β : BitVec 32) (hβ : 0 ≤ β.toInt ∧ β.toInt ≤ 1999) : β.toInt = (β.toNat : Int) := by
  have hlt := β.isLt
  rw [BitVec.toInt_eq_toNat_cond] at hβ ⊢
  split_ifs at hβ ⊢ <;> omega

/-- The scatter at cell `2000·b + k`: the operand there plus the updates of the peaks of row `b` whose bin is `k`. -/
theorem scatter_row (x : S32768000.Idx → EReal) (idx : IVec S4194304x1 32) (upd : S4194304.Idx → EReal)
    (β : Fin 16384 → Fin 256 → BitVec 32)
    (hβ : ∀ b p, 0 ≤ (β b p).toInt ∧ (β b p).toInt ≤ 1999)
    (hidx : ∀ (b : Fin 16384) (p : Fin 256),
      idx (ix2 (flatEquiv (b, p) 0) (0 : Fin 1)) = β b p + BitVec.ofNat 32 b.val * 2000#32)
    (b : Fin 16384) (k : Fin 2000) (i : S32768000.Idx) (hi : (i 0).val = b.val * 2000 + k.val) :
    Ideal.hostScatterAdd dS x idx upd i
      = x i + ∑ p : Fin 256, if (β b p).toNat = k.val then upd (flatEquiv (b, p)) else 0 := by
  unfold Ideal.hostScatterAdd
  refine congrArg (x i + ·) ?_
  rw [Finset.sum_filter, ← Equiv.sum_comp flatEquiv, Fintype.sum_prod_type, Finset.sum_eq_single b]
  · refine Finset.sum_congr rfl fun p _ => ?_
    refine if_congr ?_ rfl rfl
    rw [resultIdx_iff, hidx, toInt_cell _ (hβ b p), hi, toNat_of_range _ (hβ b p)]
    have := hβ b p
    push_cast
    omega
  · intro b' _ hb'
    refine Finset.sum_eq_zero fun p _ => ?_
    rw [if_neg]
    rw [resultIdx_iff, hidx, toInt_cell _ (hβ b' p), hi]
    have := hβ b' p
    have := k.isLt
    have : b'.val ≠ b.val := fun h => hb' (Fin.ext h)
    push_cast
    omega
  · intro h; exact absurd (Finset.mem_univ b) h

end Cert.ReferenceIdeal.RefValue

end
-- ==== Proof.RefHist.lean ====
/-
  The reference's two histograms.  The scattered array, reshaped to 16384 rows of 2000 cells, holds at `(b, k)` the sum
  of the weights of the peaks of row `b` whose bin is `k`: the specification's histogram of that row.
-/
import proofs.«131988_j54434415509810_2_alg».proof.Proof.Gen.ReferenceIdeal.Read
import proofs.«131988_j54434415509810_2_alg».proof.Proof.Spec
import proofs.«131988_j54434415509810_2_alg».proof.Proof.RefBin
import proofs.«131988_j54434415509810_2_alg».proof.Proof.RefScatter

noncomputable section

namespace Cert.ReferenceIdeal.RefValue

open Cert.ReferenceIdeal Cert.ReferenceIdeal.Gen Idealize.ShloMosaic Idealize.ShloMosaic.ValueIdx Cert.Spectrum

/-- The flat peak number `256·b + p` read back through the reshape is the peak `(b, p)` (the index array's reading). -/
theorem unflat13 (b : Fin 16384) (p : Fin 256) :
    Read.idx_main_v13 (Read.idx_main_v16 (ix2 (flatEquiv (b, p) 0) (0 : Fin 1))) = ix2 b p := by
  have hb := b.isLt; have hp := p.isLt
  funext a
  match a with
  | ⟨0, _⟩ => apply Fin.ext; show (b.val * 256 + p.val) / 256 = b.val; omega
  | ⟨1, _⟩ => apply Fin.ext; show (b.val * 256 + p.val) % 256 = p.val; omega

/-- The same for the weights' reshape. -/
theorem unflat14 (b : Fin 16384) (p : Fin 256) :
    Read.idx_main_v14 (flatEquiv (b, p)) = ix2 b p := by
  have hb := b.isLt; have hp := p.isLt
  funext a
  match a with
  | ⟨0, _⟩ => apply Fin.ext; show (b.val * 256 + p.val) / 256 = b.val; omega
  | ⟨1, _⟩ => apply Fin.ext; show (b.val * 256 + p.val) % 256 = p.val; omega

/-- The start index of peak `(b, p)` of the predicted spectrum: its bin plus 2000 times its row. -/
theorem cellA (x0 : (⟨S16384x256, .f32⟩ : BufTy).Contents (Elt Ideal)) (b : Fin 16384) (p : Fin 256) :
    Read.val_main_v16 (F := Ideal) x0 (ix2 (flatEquiv (b, p) 0) (0 : Fin 1))
      = bin (x0 (ix2 b p)) + BitVec.ofNat 32 b.val * 2000#32 := by
  rw [Read.val_main_v16_apply, Read.val_main_v13_apply, unflat13, Read.val_main_v12_apply, Read.val_main_v6_apply,
    Read.val_main_call0_v4_apply, Read.val_main_call0_v3_apply, Read.val_main_c_1_apply,
    Read.val_main_call0_v2_apply, Read.val_main_call0_v1_apply, Read.val_main_call0_v0_apply, Read.val_main_c_apply,
    Read.val_main_v5_apply, Read.val_main_v4_apply, Read.val_main_v2_apply, Read.val_main_v1_apply, Read.val_main_cst_apply,
    Read.val_main_v3_apply, Read.val_main_cst_0_apply,
    Read.val_main_v11_apply, Read.val_main_v10_apply, Read.val_main_v8_apply, Read.val_main_v7_apply,
    Read.val_main_v9_apply, Read.val_main_c_2_apply]
  simp only [Ideal.ofBits_def, Ideal.mulf_def, Ideal.hostDivf_def]
  rw [div_ofBits_one]
  rfl

/-- The predicted spectrum's scatter, as the sum it is on the extended reals. -/
theorem v17_def (x0 x1 x2 : (⟨S16384x256, .f32⟩ : BufTy).Contents (Elt Ideal)) :
    Read.val_main_v17 (F := Ideal) x0 x1 x2
      = Ideal.hostScatterAdd dS (Read.val_main_v15 (F := Ideal)) (Read.val_main_v16 (F := Ideal) x0)
          (Read.val_main_v14 (F := Ideal) x1 x2) := rfl

/-- Cell `(b, k)` of the 16384 × 2000 array is flat cell `2000·b + k`. -/
theorem hi18 (b : Fin 16384) (k : Fin 2000) : ((Read.idx_main_v18 (ix2 b k)) 0).val = b.val * 2000 + k.val := rfl

/-- The predicted spectrum's histogram: cell `(b, k)` of the reshaped scatter. -/
theorem histA (x0 x1 x2 : (⟨S16384x256, .f32⟩ : BufTy).Contents (Elt Ideal)) (b : Fin 16384) (k : Fin 2000) :
    Read.val_main_v18 (F := Ideal) x0 x1 x2 (ix2 b k)
      = hist (fun p => bin (x0 (ix2 b p))) (fun p => x1 (ix2 b p) * x2 (ix2 b p)) k := by
  have h := scatter_row (Read.val_main_v15 (F := Ideal)) (Read.val_main_v16 (F := Ideal) x0)
    (Read.val_main_v14 (F := Ideal) x1 x2) (fun b p => bin (x0 (ix2 b p))) (fun b p => bin_range _) (cellA x0) b k
    (Read.idx_main_v18 (ix2 b k)) (hi18 b k)
  rw [Read.val_main_v18_apply, v17_def, h, Read.val_main_v15_apply, Read.val_main_cst_3_apply, Ideal.ofBits_def,
    Ideal.ofBits_zero_f32, zero_add]
  exact Finset.sum_congr rfl fun p _ => by
    rw [Read.val_main_v14_apply, unflat14, Read.val_main_v0_apply, Ideal.mulf_def]

/-- The flat peak number read back through the target spectrum's reshapes. -/
theorem unflat40 (b : Fin 16384) (p : Fin 256) :
    Read.idx_main_v40 (Read.idx_main_v43 (ix2 (flatEquiv (b, p) 0) (0 : Fin 1))) = ix2 b p := unflat13 b p

/-- The same for the target's weights. -/
theorem unflat41 (b : Fin 16384) (p : Fin 256) :
    Read.idx_main_v41 (flatEquiv (b, p)) = ix2 b p := unflat14 b p

/-- The start index of peak `(b, p)` of the target spectrum: its bin plus 2000 times its row. -/
theorem cellB (x3 : (⟨S16384x256, .f32⟩ : BufTy).Contents (Elt Ideal)) (b : Fin 16384) (p : Fin 256) :
    Read.val_main_v43 (F := Ideal) x3 (ix2 (flatEquiv (b, p) 0) (0 : Fin 1))
      = bin (x3 (ix2 b p)) + BitVec.ofNat 32 b.val * 2000#32 := by
  rw [Read.val_main_v43_apply, Read.val_main_v40_apply, unflat40, Read.val_main_v39_apply, Read.val_main_v33_apply,
    Read.val_main_call1_v4_apply, Read.val_main_call1_v3_apply, Read.val_main_c_9_apply,
    Read.val_main_call1_v2_apply, Read.val_main_call1_v1_apply, Read.val_main_call1_v0_apply, Read.val_main_c_8_apply,
    Read.val_main_v32_apply, Read.val_main_v31_apply, Read.val_main_v29_apply, Read.val_main_v28_apply, Read.val_main_cst_6_apply,
    Read.val_main_v30_apply, Read.val_main_cst_7_apply,
    Read.val_main_v38_apply, Read.val_main_v37_apply, Read.val_main_v35_apply, Read.val_main_v34_apply,
    Read.val_main_v36_apply, Read.val_main_c_10_apply]
  simp only [Ideal.ofBits_def, Ideal.mulf_def, Ideal.hostDivf_def]
  rw [div_ofBits_one]
  rfl

/-- The target spectrum's scatter, as the sum it is on the extended reals. -/
theorem v44_def (x3 x4 x5 : (⟨S16384x256, .f32⟩ : BufTy).Contents (Elt Ideal)) :
    Read.val_main_v44 (F := Ideal) x3 x4 x5
      = Ideal.hostScatterAdd dS (Read.val_main_v42 (F := Ideal)) (Read.val_main_v43 (F := Ideal) x3)
          (Read.val_main_v41 (F := Ideal) x4 x5) := rfl

theorem hi45 (b : Fin 16384) (k : Fin 2000) : ((Read.idx_main_v45 (ix2 b k)) 0).val = b.val * 2000 + k.val := rfl

/-- The target spectrum's histogram: cell `(b, k)` of the reshaped scatter. -/
theorem histB (x3 x4 x5 : (⟨S16384x256, .f32⟩ : BufTy).Contents (Elt Ideal)) (b : Fin 16384) (k : Fin 2000) :
    Read.val_main_v45 (F := Ideal) x3 x4 x5 (ix2 b k)
      = hist (fun p => bin (x3 (ix2 b p))) (fun p => x4 (ix2 b p) * x5 (ix2 b p)) k := by
  have h := scatter_row (Read.val_main_v42 (F := Ideal)) (Read.val_main_v43 (F := Ideal) x3)
    (Read.val_main_v41 (F := Ideal) x4 x5) (fun b p => bin (x3 (ix2 b p))) (fun b p => bin_range _) (cellB x3) b k
    (Read.idx_main_v45 (ix2 b k)) (hi45 b k)
  rw [Read.val_main_v45_apply, v44_def, h, Read.val_main_v42_apply, Read.val_main_cst_11_apply, Ideal.ofBits_def,
    Ideal.ofBits_zero_f32, zero_add]
  exact Finset.sum_congr rfl fun p _ => by
    rw [Read.val_main_v41_apply, unflat41, Read.val_main_v27_apply, Ideal.mulf_def]

end Cert.ReferenceIdeal.RefValue

end
-- ==== Proof.RefValue.lean ====
/-
  One row of the reference.  With `a` and `b` the two histograms of the row, the reference divides each by its norm plus
  `ε`, sums the products of the two normalized rows over the 2000 bins, and divides by the product of the two normalized
  rows' norms, each kept at least `ε`: the specification's cosine of normalized histograms.  The last host operations —
  the sum over the rows, the division by 16384, one minus it, times one — are the specification's `finish` as they stand.
-/
import proofs.«131988_j54434415509810_2_alg».proof.Proof.Gen.ReferenceIdeal.Read
import proofs.«131988_j54434415509810_2_alg».proof.Proof.Spec
import proofs.«131988_j54434415509810_2_alg».proof.Proof.RefHist

noncomputable section

namespace Cert.ReferenceIdeal.RefValue

open Cert.ReferenceIdeal Cert.ReferenceIdeal.Gen Idealize.ShloMosaic Idealize.ShloMosaic.ValueIdx Cert.Spectrum

/-- The predicted row's histogram divided by its norm plus `ε`. -/
theorem normA (x0 x1 x2 : (⟨S16384x256, .f32⟩ : BufTy).Contents (Elt Ideal)) (b : Fin 16384) (k : Fin 2000) :
    Read.val_main_v26 (F := Ideal) x0 x1 x2 (ix2 b k)
      = Ideal.div (hist (fun p => bin (x0 (ix2 b p))) (fun p => x1 (ix2 b p) * x2 (ix2 b p)) k)
          (Ideal.sqrt (∑ k' : Fin 2000, hist (fun p => bin (x0 (ix2 b p))) (fun p => x1 (ix2 b p) * x2 (ix2 b p)) k'
            * hist (fun p => bin (x0 (ix2 b p))) (fun p => x1 (ix2 b p) * x2 (ix2 b p)) k') + eps) := by
  rw [Read.val_main_v26_apply, Read.val_main_v25_apply, Read.val_main_v24_apply, Read.val_main_v22_apply,
    Read.val_main_v21_apply, Read.val_main_v20_apply, Read.val_main_cst_4_apply, Read.val_main_v23_apply,
    Read.val_main_cst_5_apply, histA]
  have hsum : ∑ k' : Fin 2000, Read.val_main_v19 (F := Ideal) x0 x1 x2
        (Read.idx_main_v20 (Read.idx_main_v21 (Read.idx_main_v25 (ix2 b k))) k')
      = ∑ k' : Fin 2000, hist (fun p => bin (x0 (ix2 b p))) (fun p => x1 (ix2 b p) * x2 (ix2 b p)) k'
            * hist (fun p => bin (x0 (ix2 b p))) (fun p => x1 (ix2 b p) * x2 (ix2 b p)) k' :=
    Finset.sum_congr rfl fun k' _ => by
      rw [show Read.idx_main_v20 (Read.idx_main_v21 (Read.idx_main_v25 (ix2 b k))) k' = ix2 b k' from
        funext fun a => by match a with | ⟨0, _⟩ => rfl | ⟨1, _⟩ => rfl]
      rw [Read.val_main_v19_apply, histA, Ideal.mulf_def]
  rw [hsum]
  simp only [Ideal.hostDivf_def, Ideal.addf_def, Ideal.hostUnary_sqrt_def, Ideal.ofBits_def, Ideal.ofBits_zero_f32, zero_add]

/-- The target row's histogram divided by its norm plus `ε`. -/
theorem normB (x3 x4 x5 : (⟨S16384x256, .f32⟩ : BufTy).Contents (Elt Ideal)) (b : Fin 16384) (k : Fin 2000) :
    Read.val_main_v53 (F := Ideal) x3 x4 x5 (ix2 b k)
      = Ideal.div (hist (fun p => bin (x3 (ix2 b p))) (fun p => x4 (ix2 b p) * x5 (ix2 b p)) k)
          (Ideal.sqrt (∑ k' : Fin 2000, hist (fun p => bin (x3 (ix2 b p))) (fun p => x4 (ix2 b p) * x5 (ix2 b p)) k'
            * hist (fun p => bin (x3 (ix2 b p))) (fun p => x4 (ix2 b p) * x5 (ix2 b p)) k') + eps) := by
  rw [Read.val_main_v53_apply, Read.val_main_v52_apply, Read.val_main_v51_apply, Read.val_main_v49_apply,
    Read.val_main_v48_apply, Read.val_main_v47_apply, Read.val_main_cst_12_apply, Read.val_main_v50_apply,
    Read.val_main_cst_13_apply, histB]
  have hsum : ∑ k' : Fin 2000, Read.val_main_v46 (F := Ideal) x3 x4 x5
        (Read.idx_main_v47 (Read.idx_main_v48 (Read.idx_main_v52 (ix2 b k))) k')
      = ∑ k' : Fin 2000, hist (fun p => bin (x3 (ix2 b p))) (fun p => x4 (ix2 b p) * x5 (ix2 b p)) k'
            * hist (fun p => bin (x3 (ix2 b p))) (fun p => x4 (ix2 b p) * x5 (ix2 b p)) k' :=
    Finset.sum_congr rfl fun k' _ => by
      rw [show Read.idx_main_v47 (Read.idx_main_v48 (Read.idx_main_v52 (ix2 b k))) k' = ix2 b k' from
        funext fun a => by match a with | ⟨0, _⟩ => rfl | ⟨1, _⟩ => rfl]
      rw [Read.val_main_v46_apply, histB, Ideal.mulf_def]
  rw [hsum]
  simp only [Ideal.hostDivf_def, Ideal.addf_def, Ideal.hostUnary_sqrt_def, Ideal.ofBits_def, Ideal.ofBits_zero_f32, zero_add]

/-- Row `b` of the reference's cosines is the cosine of the two normalized histograms. -/
theorem rowRef (x0 x1 x2 x3 x4 x5 : (⟨S16384x256, .f32⟩ : BufTy).Contents (Elt Ideal)) (b : Fin 16384) :
    Read.val_main_v67 (F := Ideal) x0 x1 x2 x3 x4 x5 (ix1 b)
      = cosNormalized (hist (fun p => bin (x0 (ix2 b p))) (fun p => x1 (ix2 b p) * x2 (ix2 b p)))
          (hist (fun p => bin (x3 (ix2 b p))) (fun p => x4 (ix2 b p) * x5 (ix2 b p))) := by
  rw [Read.val_main_v67_apply, Read.val_main_v55_apply, Read.val_main_cst_14_apply, Read.val_main_v66_apply,
    Read.val_main_v63_apply, Read.val_main_v58_apply, Read.val_main_v57_apply, Read.val_main_cst_15_apply,
    Read.val_main_v62_apply, Read.val_main_cst_17_apply, Read.val_main_v65_apply, Read.val_main_v61_apply,
    Read.val_main_v60_apply, Read.val_main_cst_16_apply, Read.val_main_v64_apply, Read.val_main_cst_18_apply]
  have h55 : ∑ k : Fin 2000, Read.val_main_v54 (F := Ideal) x0 x1 x2 x3 x4 x5 (Read.idx_main_v55 (ix1 b) k)
      = ∑ k : Fin 2000, Read.val_main_v26 (F := Ideal) x0 x1 x2 (ix2 b k) * Read.val_main_v53 (F := Ideal) x3 x4 x5 (ix2 b k) :=
    Finset.sum_congr rfl fun k _ => by
      rw [show Read.idx_main_v55 (ix1 b) k = ix2 b k from
        funext fun a => by match a with | ⟨0, _⟩ => rfl | ⟨1, _⟩ => rfl]
      rw [Read.val_main_v54_apply, Ideal.mulf_def]
  have h57 : ∑ k : Fin 2000, Read.val_main_v56 (F := Ideal) x0 x1 x2 (Read.idx_main_v57 (ix1 b) k)
      = ∑ k : Fin 2000, Read.val_main_v26 (F := Ideal) x0 x1 x2 (ix2 b k) * Read.val_main_v26 (F := Ideal) x0 x1 x2 (ix2 b k) :=
    Finset.sum_congr rfl fun k _ => by
      rw [show Read.idx_main_v57 (ix1 b) k = ix2 b k from
        funext fun a => by match a with | ⟨0, _⟩ => rfl | ⟨1, _⟩ => rfl]
      rw [Read.val_main_v56_apply, Ideal.mulf_def]
  have h60 : ∑ k : Fin 2000, Read.val_main_v59 (F := Ideal) x3 x4 x5 (Read.idx_main_v60 (ix1 b) k)
      = ∑ k : Fin 2000, Read.val_main_v53 (F := Ideal) x3 x4 x5 (ix2 b k) * Read.val_main_v53 (F := Ideal) x3 x4 x5 (ix2 b k) :=
    Finset.sum_congr rfl fun k _ => by
      rw [show Read.idx_main_v60 (ix1 b) k = ix2 b k from
        funext fun a => by match a with | ⟨0, _⟩ => rfl | ⟨1, _⟩ => rfl]
      rw [Read.val_main_v59_apply, Ideal.mulf_def]
  rw [h55, h57, h60]
  simp only [normA, normB, Ideal.hostDivf_def, Ideal.mulf_def, Ideal.maximumf_def, Ideal.hostUnary_sqrt_def,
    Ideal.ofBits_def, Ideal.ofBits_zero_f32, zero_add]
  rfl

/-- THE REFERENCE'S RESULT: one minus the mean over the rows of the cosine of the two normalized histograms. -/
theorem ref_eq (x0 x1 x2 x3 x4 x5 : (⟨S16384x256, .f32⟩ : BufTy).Contents (Elt Ideal)) :
    Read.val_main_v71 (F := Ideal) x0 x1 x2 x3 x4 x5
      = Cert.Spectrum.finish reducesTo_S16384_S_d0 h_S_
          (fun b => Cert.Spectrum.rowCosNormalized (Cert.Spectrum.rowOf x0 (b 0)) (Cert.Spectrum.weightOf x1 x2 (b 0))
                      (Cert.Spectrum.rowOf x3 (b 0)) (Cert.Spectrum.weightOf x4 x5 (b 0))) := by
  have hrows : Read.val_main_v67 (F := Ideal) x0 x1 x2 x3 x4 x5
      = (fun b => Cert.Spectrum.rowCosNormalized (Cert.Spectrum.rowOf x0 (b 0)) (Cert.Spectrum.weightOf x1 x2 (b 0))
                      (Cert.Spectrum.rowOf x3 (b 0)) (Cert.Spectrum.weightOf x4 x5 (b 0))) := by
    funext i
    obtain ⟨b, rfl⟩ : ∃ b : Fin 16384, i = ix1 b := ⟨i 0, eq_ix1 i⟩
    exact (rowRef x0 x1 x2 x3 x4 x5 b).trans rfl
  rw [← hrows]
  rfl

end Cert.ReferenceIdeal.RefValue

end
-- ==== Proof.Finite.lean ====
/-
  Finiteness from the precondition.

  The precondition says that, for each of the six argument arrays, the conjunction over the whole array of
  `|x| < +∞` came out one.  A conjunction that is one had only ones (`Host.reduce_andi_all`), and an extended real whose
  absolute value is below `+∞` is neither infinity, so it is a real number: every entry of every argument is real.
-/
import proofs.«131988_j54434415509810_2_alg».proof.Defs
import proofs.«131988_j54434415509810_2_alg».proof.Proof.Gen.Pre_finite_inputs
import proofs.«131988_j54434415509810_2_alg».proof.Proof.Gen.KernelIdeal
import Idealize.ShloMosaic.Lib.ReduceAll
import Idealize.ShloMosaic.Lib.ValueIdx

noncomputable section

namespace Cert.KernelIdeal.Finite

open Cert.KernelIdeal Idealize.ShloMosaic Idealize.ShloMosaic.TcCoe Idealize.SL.Sem

/-- The scalar shape has one index. -/
instance : Subsingleton Cert.Pre_finite_inputs.S_.Idx := ⟨fun a b => funext fun d => d.elim0⟩

/-- An extended real whose absolute value compares below `+∞` is a real number. -/
theorem real_of_abs_lt (x : EReal)
    (h : FloatOps.cmpf (F := Ideal) (φ := .f32) .olt (FloatOps.absf (F := Ideal) (φ := .f32) x) (Ideal.ofBits .f32 0x7F800000#32) = 1#1) :
    ∃ r : ℝ, x = (r : EReal) := by
  induction x using EReal.rec with
  | bot => exfalso; revert h; simp [Ideal.ofBits, Ideal.ieee, FloatOps.cmpf, FloatOps.absf, Ideal.cmp]
  | coe r => exact ⟨r, rfl⟩
  | top => exfalso; revert h; simp [Ideal.ofBits, Ideal.ieee, FloatOps.cmpf, FloatOps.absf, Ideal.cmp]

/-- An array all of whose entries compare below `+∞` in absolute value (the conjunction over the whole array came out
    one) holds real numbers only. -/
theorem all_real (x : Cert.Pre_finite_inputs.S16384x256.Idx → EReal)
    (hb : Cert.Pre_finite_inputs.S_.BroadcastsInDim Cert.Pre_finite_inputs.S16384x256 (![] : Fin 0 → Fin Cert.Pre_finite_inputs.S16384x256.rank))
    (hr : Cert.Pre_finite_inputs.S16384x256.ReducesTo [0, 1] Cert.Pre_finite_inputs.S_)
    (hu : 0 < Cert.Pre_finite_inputs.S_.numel)
    (e : Host.reduce IntOp.andi
        (cmpf .olt (Host.absf (F := Ideal) (φ := .f32) x)
          (broadcastInDim Cert.Pre_finite_inputs.S16384x256 ![] hb (constant (F := Ideal) Cert.Pre_finite_inputs.S_ .f32 0x7F800000#32)))
        (constantI Cert.Pre_finite_inputs.S_ 1 1#1) hr hu ValueIdx.ix0 = 1#1)
    (i : Cert.Pre_finite_inputs.S16384x256.Idx) : ∃ r : ℝ, x i = (r : EReal) :=
  real_of_abs_lt (x i) (Host.reduce_andi_all _ _ hr hu ValueIdx.ix0 e i)

/-- Under the precondition every entry of the six argument arrays is a real number. -/
theorem real_of_pre (m : (ℓ : Loc nD τ sig) → Buf (Elt Ideal) ℓ) (h : Cert.Pre_KernelIdeal m) (c : Dev nD) :
    (∀ i, ∃ r : ℝ, m ((c.tc : Thread nD τ).loc main_arg0) i = (r : EReal))
    ∧ (∀ i, ∃ r : ℝ, m ((c.tc : Thread nD τ).loc main_arg1) i = (r : EReal))
    ∧ (∀ i, ∃ r : ℝ, m ((c.tc : Thread nD τ).loc main_arg2) i = (r : EReal))
    ∧ (∀ i, ∃ r : ℝ, m ((c.tc : Thread nD τ).loc main_arg3) i = (r : EReal))
    ∧ (∀ i, ∃ r : ℝ, m ((c.tc : Thread nD τ).loc main_arg4) i = (r : EReal))
    ∧ (∀ i, ∃ r : ℝ, m ((c.tc : Thread nD τ).loc main_arg5) i = (r : EReal)) := by
  have h0 := congrFun (h c) ValueIdx.ix0
  dsimp only [Cert.Pre_finite_inputs.fn, Cert.Pre_finite_inputs.fn_part1] at h0
  obtain ⟨h01234, e5⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  exact ⟨all_real _ _ _ _ e0, all_real _ _ _ _ e1, all_real _ _ _ _ e2, all_real _ _ _ _ e3, all_real _ _ _ _ e4, all_real _ _ _ _ e5⟩

end Cert.KernelIdeal.Finite

end
-- ==== Proof.lean ====
/-
  A spectral cosine loss: the kernel against its reference, on the extended reals.

  Each of the 16384 rows holds 256 predicted and 256 target peaks, a peak a position and a weight (intensity times
  confidence, or intensity times mask).  A peak's bin is its position times 2000, rounded toward zero and kept inside
  0 … 1999; a row's histogram gives each bin the sum of the weights of the peaks in it.  The result is one minus the mean over
  the rows of a cosine similarity of the two histograms, with a small `ε` added to each norm and used as a floor.

  The reference scatters the weights into the 2000 bins, divides each histogram by its norm plus `ε` and takes the cosine of
  the normalized rows.  The kernel never forms the 2000 bins: it lays a histogram out as 16 × 128 cells — cell `(h, l)` is
  bin `128·h + l`, found by two one-hot comparisons contracted on the matrix unit — and needs only `∑ a²`, `∑ b²` and
  `∑ a·b` over the cells.  The two agree because the layout enumerates the bins (the cells beyond bin 1999 are empty:
  `Bins.lean`) and because, on real entries, a positive common factor leaves a sum of products and comes out of a square
  root (`Normalize.lean`); the second step is where the finiteness of the weight arrays is used.  The positions need no
  finiteness.  `Spec.lean` states the common value; `BodyHist.lean` / `BodyValue.lean` read the kernel body at a row,
  `KernelArray.lean` / `KernelRun.lean` the kernel's run block by block and through the host lines after it,
  `RefBin.lean` / `RefScatter.lean` / `RefHist.lean` / `RefValue.lean` the reference's operations, `Finite.lean` the
  precondition, `Rows.lean` / `KernelRows.lean` join them row by row.  The idealization rewrote nothing, so `preserves` is
  trivial; the three frames are the generated ones (the reference's is its generated run with the result dropped).
-/
import proofs.«131988_j54434415509810_2_alg».proof.Defs
import proofs.«131988_j54434415509810_2_alg».proof.Proof.Gen.Kernel
import proofs.«131988_j54434415509810_2_alg».proof.Proof.Gen.Kernel.Skeleton
import proofs.«131988_j54434415509810_2_alg».proof.Proof.Gen.Kernel.Launch
import proofs.«131988_j54434415509810_2_alg».proof.Proof.Gen.Kernel.Points
import proofs.«131988_j54434415509810_2_alg».proof.Proof.Gen.Kernel.Frame
import proofs.«131988_j54434415509810_2_alg».proof.Proof.Gen.KernelIdeal
import proofs.«131988_j54434415509810_2_alg».proof.Proof.Gen.KernelIdeal.Skeleton
import proofs.«131988_j54434415509810_2_alg».proof.Proof.Gen.KernelIdeal.Launch
import proofs.«131988_j54434415509810_2_alg».proof.Proof.Gen.KernelIdeal.Points
import proofs.«131988_j54434415509810_2_alg».proof.Proof.Gen.KernelIdeal.Frame
import proofs.«131988_j54434415509810_2_alg».proof.Proof.Gen.ReferenceIdeal
import proofs.«131988_j54434415509810_2_alg».proof.Proof.Gen.Pre_finite_inputs
import proofs.«131988_j54434415509810_2_alg».proof.Proof.Gen.ReferenceIdeal.Run
import proofs.«131988_j54434415509810_2_alg».proof.Proof.Gen.ReferenceIdeal.Read
import proofs.«131988_j54434415509810_2_alg».proof.Proof.KernelRows
import proofs.«131988_j54434415509810_2_alg».proof.Proof.RefValue
import proofs.«131988_j54434415509810_2_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the specification's value of the arguments: the kernel's always, the reference's
    because the weight arrays are finite. -/
theorem algebraic : Cert.algebraic_KernelIdeal_ReferenceIdeal := by
  intro m ρ m' ρ' hpre hagree
  refine ⟨fun c => Cert.Spectrum.result Cert.KernelIdeal.Facts₀.reducesTo_S16384_S_d0 Cert.KernelIdeal.Facts₀.h_S_
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.RunValue.kernel_run m ρ)
    exact Cert.KernelIdeal.RowsValue.kernel_result _ _ _ _ _ _ _ _
  · refine (θ_run Cert.ReferenceIdeal.defs _ _).mono (fun r h c => ⟨(h c).1.trans ?_, (h c).2⟩)
      (Cert.ReferenceIdeal.Value.run (F := Ideal) m' ρ')
    obtain ⟨-, f1, f2, -, f4, f5⟩ := Cert.KernelIdeal.Finite.real_of_pre m hpre c
    rw [Cert.ReferenceIdeal.Read.val_main_v71_eq, Cert.ReferenceIdeal.RefValue.ref_eq, (hagree c).1, (hagree c).2.1,
      (hagree c).2.2.1, (hagree c).2.2.2.1, (hagree c).2.2.2.2.1, (hagree c).2.2.2.2.2]
    exact Cert.Spectrum.result_of_normalized _ _ _ _ _ _ _ _ f1 f2 f4 f5

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
